-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x358637BD#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x128 : Shape := ⟨2, ![1, 128]⟩
abbrev S2048x128 : Shape := ⟨2, ![2048, 128]⟩
abbrev S1024x128 : Shape := ⟨2, ![1024, 128]⟩

abbrev nBuf : Space → Nat
  | .hbm => 12
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S8192x128, .f32⟩
  | .hbm, ⟨6, _⟩ => ⟨S8192x128, .f32⟩
  | .hbm, ⟨7, _⟩ => ⟨S128x128, .f32⟩
  | .hbm, ⟨8, _⟩ => ⟨S8192x128, .f32⟩
  | .hbm, ⟨9, _⟩ => ⟨S8192x128, .bf16⟩
  | .hbm, ⟨10, _⟩ => ⟨S1x128, .f32⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x128, .bf16⟩
  | .local _ .vmem, ⟨8, _⟩ => ⟨S2048x128, .bf16⟩
  | .local _ .vmem, ⟨9, _⟩ => ⟨S1024x1, .f32⟩
  | .local _ .vmem, ⟨10, _⟩ => ⟨S1024x1, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S8192x1_S8192x128_0_1 : S8192x1.BroadcastsInDim S8192x128 (![0, 1] : Fin 2 → Fin S8192x128.rank)
  transposes_S128x128_S128x128_1_0 : S128x128.Transposes [1, 0] S128x128
  bitsLt_bf16_f32 : FTy.bits .bf16 < FTy.bits .f32
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S8192x128_S128x128_S8192x128_1_0_0_1_n_n_wf : DotDims.WF S8192x128 S128x128 S8192x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x128, .f32⟩
  | .hbm, ⟨20, _⟩ => ⟨S128x128, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.R0Runs.lean ====
/-
  The row-sum kernel (the first of the program's two kernels), what its per-case runs share.

  The kernel visits a grid of 8 row blocks by 4 column blocks, the column block changing fastest, so the point
  numbered `t` handles column block `t % 4` of row block `t / 4`.  It keeps a [1024, 1] accumulator in a scratch
  buffer across the four points of a row block: it clears it where `t % 4 = 0`, adds the block's row sums at every
  point, and where `t % 4 = 3` stores `rsqrt (accumulator + ε)` into the output block.  Here: a window's block read
  off the array the kernel finds on entry, the two branch conditions in closed form over the grid, where the output
  window is idle, and the memrefs the body is called with.
-/
import proofs.«180980_j15479062135162_2_alg».proof.Proof.Gen.KernelIdeal.Launch
import proofs.«180980_j15479062135162_2_alg».proof.Proof.Gen.KernelIdeal.Skeleton
import proofs.«180980_j15479062135162_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the kernel is entered
variable (V : (c : Dev nD) → (b : Ref sig .tc) → Buf (Elt F) ((c : Thread nD τ).loc b))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column block": the condition under which the accumulator is cleared. -/
abbrev cond0 (i : grid0.Coords) : Prop := (Scalar.cmpi .ne (Scalar.extui (Scalar.cmpi .eq (BitVec.ofNat 32 (i 1).val) 0#32)) 0#32) = 1#1
/-- It holds at the points `t` with `t % 4 = 0`. -/
theorem hcond0 : ∀ t : Fin cfg0.N, cond0 (grid0.coords t) ↔ t.val % 4 = 0 :=
  (by decide +kernel : ∀ t : Fin grid0.N, cond0 (grid0.coords t) ↔ t.val % 4 = 0)

/-- "This is the last column block": the condition under which the output block is stored. -/
abbrev cond1 (i : grid0.Coords) : Prop := k0_cond2 i = 1#1
/-- It holds at the points `t` with `t % 4 = 3`. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

/-- The input window is never idle. -/
theorem liveAt_0 : ∀ t : Fin cfg0.N, cfg0.idle 0 (grid0.coords t) = false := by decide +kernel
/-- Where the output block is not stored the output window is idle, -/
theorem idleAt_1 : ∀ t : Fin cfg0.N, ¬cond1 (grid0.coords t) → cfg0.idle 1 (grid0.coords t) = true := by decide +kernel
/-- and its block is not written back there. -/
theorem noFlush_1 : ∀ t : Fin cfg0.N, ¬cond1 (grid0.coords t) → (cfg0.win 1).flush t = false := by decide +kernel
/-- Where the output block is stored the window is live. -/
theorem liveAt_1 : ∀ t : Fin cfg0.N, cond1 (grid0.coords t) → cfg0.idle 1 (grid0.coords t) = false := by decide +kernel

/-! ## The memrefs the body is called with -/

/-- One staging buffer of the output window, through which its contents are stated. -/
abbrev VO_1 : View sig .tc .vmem S1024x1 .f32 := (Memref.whole cc0_stg1_0 : Memref sig .tc .vmem S1024x1 .f32).view
/-- Each window's current staging memref at point `t`, and its wholeness. -/
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x1 .f32 := win0_1.stage (cfg0.slots t 1)
abbrev hs_1 (t : Fin cfg0.N) : (ms_1 t).IsWhole := hstage0_1 ((cfg0.slots t 1).cast nbuf0_1)
/-- The accumulator: a whole scoped buffer of the kernel's own. -/
abbrev scM : Memref sig .tc .vmem S1024x1 .f32 := Memref.whole cc0_scratch0
/-- The accumulator as a view: what it holds is stated through it. -/
abbrev VS : View sig .tc .vmem S1024x1 .f32 := scM.view

/-- The other kernel's staging buffers and accumulator, each at some contents: this kernel never touches them, and they
    ride along from point to point. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the kernel may use besides its windows: its accumulator at some contents, the other kernel's buffers, and the
    generator register at some state. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA Rest; rw [scopedRest0_eq]; simp only [scM, owns_whole]; try rfl

end Cert.KernelIdeal.R0

end
-- ==== Proof.R0RunA.lean ====
/-
  The row-sum kernel's body at a point of the first column block (`t % 4 = 0`): the accumulator, whatever it held,
  is cleared and then receives the block's row sums; the output block is left untouched.
-/
import proofs.«180980_j15479062135162_2_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the accumulator at such a point, as pieces (last first), with the proof that from
    the input block at `x0`, the output buffer at `xi1` and the accumulator at anything the body runs to the
    continuation holding the input and output buffers as they were and the accumulator with those pieces written. -/
noncomputable def kernelRun_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.R0RunB.lean ====
/-
  The row-sum kernel's body at a point of a middle column block (`t % 4` is 1 or 2): the block's row sums are added
  to the accumulator the point before left; the output block is left untouched.
-/
import proofs.«180980_j15479062135162_2_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the accumulator at such a point, as pieces (last first), with the proof that from
    the input block at `x0`, the output buffer at `xi1` and the accumulator at `xs0` the body runs to the
    continuation holding the input and output buffers as they were and the accumulator with those pieces written. -/
noncomputable def kernelRun_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.R0RunC.lean ====
/-
  The row-sum kernel's body at a point of the last column block (`t % 4 = 3`): the block's row sums are added to the
  accumulator the point before left, and the output block is stored from the completed accumulator.
-/
import proofs.«180980_j15479062135162_2_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the output buffer and into the accumulator at such a point, as pieces (last first),
    with the proof that from the input block at `x0`, the output buffer at anything and the accumulator at `xs0` the
    body runs to the continuation holding the input buffer as it was and the other two with their pieces written. -/
noncomputable def kernelRun_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.R0

end
-- ==== Proof.R0Frame.lean ====
/-
  The row-sum kernel: what it leaves point by point, its proof data, and its body obligation.

  After the body at point `t` the accumulator holds the row sums of column blocks `0 … t % 4` of row block `t / 4`
  (cleared at `t % 4 = 0`, then one block's row sums added per point), and at `t % 4 = 3` the output block holds
  `rsqrt (accumulator + ε)`.  `outsAt` states this by recursion on the point: each case of the two branch conditions
  run on the point's input block and on what the point before left in the accumulator.  The invariant carried from
  point to point is the accumulator at exactly that contents.
-/
import proofs.«180980_j15479062135162_2_alg».proof.Proof.R0RunA
import proofs.«180980_j15479062135162_2_alg».proof.Proof.R0RunB
import proofs.«180980_j15479062135162_2_alg».proof.Proof.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the kernel is entered
variable (V : (c : Dev nD) → (b : Ref sig .tc) → Buf (Elt F) ((c : Thread nD τ).loc b))

/-! ## What each case leaves -/

/-- At a first-column-block point nothing is stored into the output buffer: a placeholder nothing consults (the window
    is idle there and not written back). -/
def out_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) : Vec F S1024x1 .f32 :=
  VO_1.read (Elt F) (VO_1.writes (Elt F) VO_1.junk (kernelRun_A c i arg2 harg2 arg3 harg3 arg4 harg4 hc0 hc1 x0).1)

/-- The stores into the accumulator at a first-column-block point cover it. -/
theorem scover_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) (y : S1024x1.Idx) :
    ∃ pc ∈ (kernelRun_A c i arg2 harg2 arg3 harg3 arg4 harg4 hc0 hc1 x0).2.1, y ∈ pc.1.set :=
  View.cover_of_tiledL (kernelRun_A c i arg2 harg2 arg3 harg3 arg4 harg4 hc0 hc1 x0).2.1 S1024x1.size (by sl_kernel_rfl) y

/-- What a first-column-block point leaves in the accumulator. -/
def sout_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) : Vec F S1024x1 .f32 :=
  VS.read (Elt F) (VS.writes (Elt F) VS.junk (kernelRun_A c i arg2 harg2 arg3 harg3 arg4 harg4 hc0 hc1 x0).2.1)

/-- At a middle-column-block point nothing is stored into the output buffer: a placeholder nothing consults. -/
def out_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) : Vec F S1024x1 .f32 :=
  VO_1.read (Elt F) (VO_1.writes (Elt F) VO_1.junk (kernelRun_B c i arg2 harg2 arg3 harg3 arg4 harg4 hc0 hc1 x0 xs0).1)

/-- The store into the accumulator at a middle-column-block point covers it. -/
theorem scover_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) (y : S1024x1.Idx) :
    ∃ pc ∈ (kernelRun_B c i arg2 harg2 arg3 harg3 arg4 harg4 hc0 hc1 x0 xs0).2.1, y ∈ pc.1.set :=
  View.cover_of_tiledL (kernelRun_B c i arg2 harg2 arg3 harg3 arg4 harg4 hc0 hc1 x0 xs0).2.1 S1024x1.size (by sl_kernel_rfl) y

/-- What a middle-column-block point leaves in the accumulator. -/
def sout_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) : Vec F S1024x1 .f32 :=
  VS.read (Elt F) (VS.writes (Elt F) VS.junk (kernelRun_B c i arg2 harg2 arg3 harg3 arg4 harg4 hc0 hc1 x0 xs0).2.1)

/-- The store into the output buffer at a last-column-block point covers it. -/
theorem cover_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) (y : S1024x1.Idx) :
    ∃ pc ∈ (kernelRun_C c i arg2 harg2 arg3 harg3 arg4 harg4 hc0 hc1 x0 xs0).1, y ∈ pc.1.set :=
  View.cover_of_tiledL (kernelRun_C c i arg2 harg2 arg3 harg3 arg4 harg4 hc0 hc1 x0 xs0).1 S1024x1.size (by sl_kernel_rfl) y

/-- What a last-column-block point leaves in the output buffer. -/
def out_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) : Vec F S1024x1 .f32 :=
  VO_1.read (Elt F) (VO_1.writes (Elt F) VO_1.junk (kernelRun_C c i arg2 harg2 arg3 harg3 arg4 harg4 hc0 hc1 x0 xs0).1)

/-- The store into the accumulator at a last-column-block point covers it. -/
theorem scover_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) (y : S1024x1.Idx) :
    ∃ pc ∈ (kernelRun_C c i arg2 harg2 arg3 harg3 arg4 harg4 hc0 hc1 x0 xs0).2.1, y ∈ pc.1.set :=
  View.cover_of_tiledL (kernelRun_C c i arg2 harg2 arg3 harg3 arg4 harg4 hc0 hc1 x0 xs0).2.1 S1024x1.size (by sl_kernel_rfl) y

/-- What a last-column-block point leaves in the accumulator. -/
def sout_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) : Vec F S1024x1 .f32 :=
  VS.read (Elt F) (VS.writes (Elt F) VS.junk (kernelRun_C c i arg2 harg2 arg3 harg3 arg4 harg4 hc0 hc1 x0 xs0).2.1)

/-! ## What the output buffer and the accumulator hold after each point -/

/-- After the body at position `n`: (the output window's staging buffer, the accumulator).  The case the closed forms
    select at `n`, run on the point's input block and on what position `n - 1` left in the accumulator. -/
def outsAt (c : Dev nD) : (n : ℕ) → n < cfg0.N → Vec F S1024x1 .f32 × Vec F S1024x1 .f32
  | 0, hn => (out_A_1 c (grid0.coords ⟨0, hn⟩) (ms_0 ⟨0, hn⟩) (hs_0 ⟨0, hn⟩) (ms_1 ⟨0, hn⟩) (hs_1 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩), sout_A c (grid0.coords ⟨0, hn⟩) (ms_0 ⟨0, hn⟩) (hs_0 ⟨0, hn⟩) (ms_1 ⟨0, hn⟩) (hs_1 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩))
  | n + 1, hn =>
    if h0 : (n + 1) % 4 = 0 then
      if h1 : (n + 1) % 4 = 3 then
        False.elim (by omega)
      else
        (out_A_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) ((hcond0 ⟨n + 1, hn⟩).mpr h0) (fun h => h1 ((hcond1 ⟨n + 1, hn⟩).mp h)) (iblk V c 0 ⟨n + 1, hn⟩), sout_A c (grid0.coords ⟨n + 1, hn⟩) (ms_0 ⟨n + 1, hn⟩) (hs_0 ⟨n + 1, hn⟩) (ms_1 ⟨n + 1, hn⟩) (hs_1 ⟨n + 1, hn⟩) scM (Memref.isWhole_whole _) ((hcond0 ⟨n + 1, hn⟩).mpr h0) (fun h => h1 ((hcond1 ⟨n + 1, hn⟩).mp h)) (iblk V c 0 ⟨n + 1, hn⟩))
    else
      if h1 : (n + 1) % 4 = 3 then
        (out_C_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) ((hcond1 ⟨n + 1, hn⟩).mpr h1) (iblk V c 0 ⟨n + 1, hn⟩) (outsAt c n (Nat.lt_of_succ_lt hn)).2, sout_C c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) ((hcond1 ⟨n + 1, hn⟩).mpr h1) (iblk V c 0 ⟨n + 1, hn⟩) (outsAt c n (Nat.lt_of_succ_lt hn)).2)
      else
        (out_B_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (outsAt c n (Nat.lt_of_succ_lt hn)).2, sout_B c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (outsAt c n (Nat.lt_of_succ_lt hn)).2)

/-- `outsAt` at a first-column-block point. -/
theorem outsAt_A (c : Dev nD) (t : Fin cfg0.N) (h0 : t.val % 4 = 0) (h1 : ¬t.val % 4 = 3) :
    outsAt V c t.val t.isLt = (out_A_1 c (grid0.coords t) (ms_0 t) (hs_0 t) (ms_1 t) (hs_1 t) scM (Memref.isWhole_whole _) ((hcond0 t).mpr h0) (fun h => h1 ((hcond1 t).mp h)) (iblk V c 0 t), sout_A c (grid0.coords t) (ms_0 t) (hs_0 t) (ms_1 t) (hs_1 t) scM (Memref.isWhole_whole _) ((hcond0 t).mpr h0) (fun h => h1 ((hcond1 t).mp h)) (iblk V c 0 t)) := by
  obtain ⟨n, hn⟩ := t
  cases n with
  | zero => exact rfl
  | succ n => exact (dif_pos h0).trans ((dif_neg h1).trans rfl)

/-- `outsAt` at a middle-column-block point: over what the point before left. -/
theorem outsAt_B (c : Dev nD) (t : Fin cfg0.N) (h0 : ¬t.val % 4 = 0) (h1 : ¬t.val % 4 = 3) :
    outsAt V c t.val t.isLt = (out_B_1 c (grid0.coords t) (ms_0 t) (hs_0 t) (ms_1 t) (hs_1 t) scM (Memref.isWhole_whole _) (fun h => h0 ((hcond0 t).mp h)) (fun h => h1 ((hcond1 t).mp h)) (iblk V c 0 t) (outsAt V c (t.val - 1) (Nat.lt_of_le_of_lt (Nat.sub_le _ _) t.isLt)).2, sout_B c (grid0.coords t) (ms_0 t) (hs_0 t) (ms_1 t) (hs_1 t) scM (Memref.isWhole_whole _) (fun h => h0 ((hcond0 t).mp h)) (fun h => h1 ((hcond1 t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last-column-block point: over what the point before left. -/
theorem outsAt_C (c : Dev nD) (t : Fin cfg0.N) (h0 : ¬t.val % 4 = 0) (h1 : t.val % 4 = 3) :
    outsAt V c t.val t.isLt = (out_C_1 c (grid0.coords t) (ms_0 t) (hs_0 t) (ms_1 t) (hs_1 t) scM (Memref.isWhole_whole _) (fun h => h0 ((hcond0 t).mp h)) ((hcond1 t).mpr h1) (iblk V c 0 t) (outsAt V c (t.val - 1) (Nat.lt_of_le_of_lt (Nat.sub_le _ _) t.isLt)).2, sout_C c (grid0.coords t) (ms_0 t) (hs_0 t) (ms_1 t) (hs_1 t) scM (Memref.isWhole_whole _) (fun h => h0 ((hcond0 t).mp h)) ((hcond1 t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before position `n`: at the first point what the launch hands the kernel (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Rest c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ Rest c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The kernel's proof data on core `c`: the arrays as found on entry; after the body at point `t` the input's buffer
    at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]

theorem before_0 (c : Dev nD) (t : Fin cfg0.N) (d) : (dat V c).before 0 t d = iblk V c 0 t :=
  before_0_of V (dat V c) (A_eq V c 0) (after_0 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's memref holds its block; the closed forms say which case the point is in; the
    invariant hands the body the accumulator at what the point before left (at anything at the very first point) and
    takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat V c).leavesExact 0 t = owns (c : Thread nD τ) (ms_0 t) fullShare ((dat V c).after 0 t) from by
        unfold Dat.leavesExact; rw [liveAt_0 t], after_0]
      rw [Dat.leavesExact_idle (dat V c) 1 t (idleAt_1 t (fun h => h1 ((hcond1 t).mp h))) (noFlush_1 t (fun h => h1 ((hcond1 t).mp h)))]
      rw [outsAt_A V c t h0 h1]
      unfold sout_A; (try dsimp only)
      by_cases hz : t.val = 0
      · rw [PhiS_castSucc V c t, PhiS_zero V c _ _ hz, PhiA_eq]
        iintro ⟨⟨⟨HS0, HR⟩, Hg⟩, Ho, ⟨%d0, H0⟩, ⟨%d1, H1⟩⟩
        iapply ((kernelRun_A c (grid0.coords t) _ _ _ _ _ _ ((hcond0 t).mpr h0) (fun h => h1 ((hcond1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _)
            iexact HR
          iexact Hg
        isplitl [Ho]; · iexact Ho
        isplitl [H0]; · iexact H0
        iexists _; iexact H1
      · rw [PhiS_castSucc V c t, PhiS_pos V c _ _ hz]
        iintro ⟨⟨⟨HS0, HR⟩, Hg⟩, Ho, ⟨%d0, H0⟩, ⟨%d1, H1⟩⟩
        iapply ((kernelRun_A c (grid0.coords t) _ _ _ _ _ _ ((hcond0 t).mpr h0) (fun h => h1 ((hcond1 t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _)
            iexact HR
          iexact Hg
        isplitl [Ho]; · iexact Ho
        isplitl [H0]; · iexact H0
        iexists _; iexact H1
  · have hz : t.val ≠ 0 := fun hz => h0 (by rw [hz])
    by_cases h1 : t.val % 4 = 3
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t ((hcond1 t).mpr h1)], after_1]
      rw [outsAt_C V c t h0 h1]
      unfold out_C_1 sout_C; (try dsimp only)
      rw [PhiS_castSucc V c t, PhiS_pos V c _ _ hz]
      iintro ⟨⟨⟨HS0, HR⟩, Hg⟩, Ho, ⟨%d0, H0⟩, ⟨%d1, H1⟩⟩
      iapply ((kernelRun_C c (grid0.coords t) _ _ _ _ _ _ (fun h => h0 ((hcond0 t).mp h)) ((hcond1 t).mpr h1) (iblk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_C c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover_C_1 c _ _ _ _ _ _ _ _ _ _ _)
    · rw [show (dat V c).leavesExact 0 t = owns (c : Thread nD τ) (ms_0 t) fullShare ((dat V c).after 0 t) from by
        unfold Dat.leavesExact; rw [liveAt_0 t], after_0]
      rw [Dat.leavesExact_idle (dat V c) 1 t (idleAt_1 t (fun h => h1 ((hcond1 t).mp h))) (noFlush_1 t (fun h => h1 ((hcond1 t).mp h)))]
      rw [outsAt_B V c t h0 h1]
      unfold sout_B; (try dsimp only)
      rw [PhiS_castSucc V c t, PhiS_pos V c _ _ hz]
      iintro ⟨⟨⟨HS0, HR⟩, Hg⟩, Ho, ⟨%d0, H0⟩, ⟨%d1, H1⟩⟩
      iapply ((kernelRun_B c (grid0.coords t) _ _ _ _ _ _ (fun h => h0 ((hcond0 t).mp h)) (fun h => h1 ((hcond1 t).mp h)) (iblk V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_B c _ _ _ _ _ _ _ _ _ _ _)
          iexact HR
        iexact Hg
      isplitl [Ho]; · iexact Ho
      isplitl [H0]; · iexact H0
      iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the launch hands the kernel is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.R0

end
-- ==== Proof.R1Runs.lean ====
import proofs.«180980_j15479062135162_2_alg».proof.Proof.Gen.KernelIdeal.Launch
import proofs.«180980_j15479062135162_2_alg».proof.Proof.Gen.KernelIdeal.Skeleton
import proofs.«180980_j15479062135162_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

/-! ## The windows' blocks -/

/-- Window `w`'s block at grid point `t`, read off its array as the region finds it: for the adjacency window the
    1024 x 2048 tile at block row `t / 4` and block column `t % 4`, for the feature window the 2048 x 128 row slab
    `t % 4`, for the degree window the 1024 x 1 slab `t / 4`, the bias row, and the output's 1024 x 128 slab `t / 4`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (unfetched, the block index has not moved since the point that fetched it), for any proof data whose array
    is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (unfetched, the block index has not moved since the point that fetched it), for any proof data whose array
    is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (unfetched, the block index has not moved since the point that fetched it), for any proof data whose array
    is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (unfetched, the block index has not moved since the point that fetched it), for any proof data whose array
    is the entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional's test: the inner grid coordinate is zero (the accumulator is cleared there). -/
abbrev cond0 (i : grid1.Coords) : Prop := (Scalar.cmpi .ne (Scalar.extui (Scalar.cmpi .eq (BitVec.ofNat 32 (i 1).val) 0#32)) 0#32) = 1#1
/-- It holds exactly at the points whose position is a multiple of four. -/
theorem hcond0 : ∀ t : Fin cfg1.N, cond0 (grid1.coords t) ↔ t.val % 4 = 0 :=
  (by decide +kernel : ∀ t : Fin grid1.N, cond0 (grid1.coords t) ↔ t.val % 4 = 0)

/-- The second conditional's test: the inner grid coordinate is three (the row slab is finished and stored there). -/
abbrev cond1 (i : grid1.Coords) : Prop := k1_cond2 i = 1#1
/-- It holds exactly at the points whose position is three modulo four. -/
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

/-- The four inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- Where the accumulator is cleared the output window is idle (nothing is stored into it) -/
theorem idleAt_4_A : ∀ t : Fin cfg1.N, cond0 (grid1.coords t) → ¬cond1 (grid1.coords t) → cfg1.idle 4 (grid1.coords t) = true := by decide +kernel
/-- and its block is not written back there. -/
theorem noFlush_4_A : ∀ t : Fin cfg1.N, cond0 (grid1.coords t) → ¬cond1 (grid1.coords t) → (cfg1.win 4).flush t = false := by decide +kernel
/-- Likewise at the two middle points of each run of four: idle, -/
theorem idleAt_4_B : ∀ t : Fin cfg1.N, ¬cond0 (grid1.coords t) → ¬cond1 (grid1.coords t) → cfg1.idle 4 (grid1.coords t) = true := by decide +kernel
/-- and not written back. -/
theorem noFlush_4_B : ∀ t : Fin cfg1.N, ¬cond0 (grid1.coords t) → ¬cond1 (grid1.coords t) → (cfg1.win 4).flush t = false := by decide +kernel
/-- At the last point of each run of four the output window is live: the finished slab is stored into it. -/
theorem liveAt_4_C : ∀ t : Fin cfg1.N, ¬cond0 (grid1.coords t) → cond1 (grid1.coords t) → cfg1.idle 4 (grid1.coords t) = false := by decide +kernel

/-! ## The memrefs the body is called with -/

/-- One staging buffer of the output window, through which its contents are stated (which of the two does not matter:
    pieces that cover a buffer read back the same through any whole view). -/
abbrev VO_4 : View sig .tc .vmem S1024x128 .f32 := (Memref.whole cc1_stg4_0 : Memref sig .tc .vmem S1024x128 .f32).view
/-- Each window's current staging memref at point `t`, spelled as the pipeline passes it, and its wholeness. -/
abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x128 .f32 := win1_4.stage (cfg1.slots t 4)
abbrev hs_4 (t : Fin cfg1.N) : (ms_4 t).IsWhole := hstage1_4 ((cfg1.slots t 4).cast nbuf1_4)
/-- The accumulator: a whole scoped buffer of the kernel's own, passed beside the windows and carried from point to point. -/
abbrev scM : Memref sig .tc .vmem S1024x128 .f32 := Memref.whole cc1_scratch0
/-- The same as a view: what the accumulator holds is stated through it. -/
abbrev VS : View sig .tc .vmem S1024x128 .f32 := scM.view

/-! ## The region's invariant -/

/-- The scoped buffers of the core that belong to the first kernel (its four staging buffers and its accumulator), each
    at some contents: this kernel never touches them. -/
def Rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- What the launch hands the region: the first kernel's scoped buffers, this kernel's accumulator owned as a memref at
    some contents, and the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ (∃ d, owns (c : Thread nD τ) scM fullShare d)) ∗ (∃ r, prngReg c r)) := by
  unfold Pipeline.ΦA; rw [scopedRest1_eq]; simp only [scM, owns_whole]; try rfl

end Cert.KernelIdeal.R1

end
-- ==== Proof.R1RunA.lean ====
import proofs.«180980_j15479062135162_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE FIRST POINT OF EACH RUN OF FOUR (inner coordinate 0): the body clears the accumulator, then adds this point's
    product `adj_tile · xw_slab` to it, and stores nothing into the output. What its stores leave in the output's
    staging memref (no pieces) and in the accumulator (two pieces, last first), WITH the proof that on whole memrefs —
    the four inputs at their contents, the output's at contents `xi4` handed back untouched, the accumulator at anything —
    the body runs to a continuation holding the inputs as they were, the output as it was, and the accumulator with its
    pieces written. -/
noncomputable def kernelRun_A (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.R1

end
-- ==== Proof.R1RunB.lean ====
import proofs.«180980_j15479062135162_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE TWO MIDDLE POINTS OF EACH RUN OF FOUR (inner coordinate 1 or 2): the body adds this point's product
    `adj_tile · xw_slab` to the accumulator and stores nothing into the output. What its stores leave in the output's
    staging memref (no pieces) and in the accumulator (one piece), WITH the proof that on whole memrefs — the four inputs
    at their contents, the output's at contents `xi4` handed back untouched, the accumulator at what the point before
    left (`xs0`) — the body runs to a continuation holding the inputs as they were, the output as it was, and the
    accumulator with its piece written. -/
noncomputable def kernelRun_B (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.R1

end
-- ==== Proof.R1RunC.lean ====
import proofs.«180980_j15479062135162_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE LAST POINT OF EACH RUN OF FOUR (inner coordinate 3): the body adds this point's product `adj_tile · xw_slab` to
    the accumulator, then scales the finished sum by the row's degree factor, adds the bias and stores the slab into the
    output. What its stores leave in the output's staging memref (one piece) and in the accumulator (one piece), WITH the
    proof that on whole memrefs — the four inputs at their contents, the output's at anything, the accumulator at what
    the point before left (`xs0`) — the body runs to a continuation holding the inputs as they were and the output's and
    the accumulator's memrefs with their pieces written. -/
noncomputable def kernelRun_C (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R1

end
-- ==== Proof.R1Frame.lean ====
import proofs.«180980_j15479062135162_2_alg».proof.Proof.R1RunA
import proofs.«180980_j15479062135162_2_alg».proof.Proof.R1RunB
import proofs.«180980_j15479062135162_2_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

/-! ## What each case leaves in the output's staging buffer and in the accumulator -/

/-- At the first point of a run of four nothing is stored into the output (the window is idle there and not written
    back): no pieces — a placeholder that nothing consults. -/
def out_A_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) : Vec F S1024x128 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- The two stores into the accumulator at the first point of a run of four (the clearing, then the first product) each
    cover it whole. -/
theorem scover_A_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) (y : S1024x128.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x128.size (by sl_kernel_rfl) y

/-- What the first point of a run of four leaves in the accumulator: its pieces read back. -/
def sout_A_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) : Vec F S1024x128 .f32 :=
  VS.read (Elt F) (VS.writes (Elt F) VS.junk (kernelRun_A c i arg2 harg2 arg3 harg3 arg4 harg4 arg5 harg5 arg6 harg6 arg7 harg7 hc0 hc1 x0 x1 x2 x3).2.1)

/-- At a middle point of a run of four nothing is stored into the output either: a placeholder again. -/
def out_B_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VO_4.read (Elt F) (VO_4.writes (Elt F) VO_4.junk (kernelRun_B c i arg2 harg2 arg3 harg3 arg4 harg4 arg5 harg5 arg6 harg6 arg7 harg7 hc0 hc1 x0 x1 x2 x3 xs0).1)

/-- The one store into the accumulator at a middle point covers it whole. -/
theorem scover_B_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_B c i arg2 harg2 arg3 harg3 arg4 harg4 arg5 harg5 arg6 harg6 arg7 harg7 hc0 hc1 x0 x1 x2 x3 xs0).2.1, y ∈ pc.1.set :=
  View.cover_of_tiledL (kernelRun_B c i arg2 harg2 arg3 harg3 arg4 harg4 arg5 harg5 arg6 harg6 arg7 harg7 hc0 hc1 x0 x1 x2 x3 xs0).2.1 S1024x128.size (by sl_kernel_rfl) y

/-- What a middle point leaves in the accumulator: the sum so far plus this point's product. -/
def sout_B_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VS.read (Elt F) (VS.writes (Elt F) VS.junk (kernelRun_B c i arg2 harg2 arg3 harg3 arg4 harg4 arg5 harg5 arg6 harg6 arg7 harg7 hc0 hc1 x0 x1 x2 x3 xs0).2.1)

/-- The one store into the output at the last point of a run of four covers its block whole. -/
theorem cover_C_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_C c i arg2 harg2 arg3 harg3 arg4 harg4 arg5 harg5 arg6 harg6 arg7 harg7 hc0 hc1 x0 x1 x2 x3 xs0).1, y ∈ pc.1.set :=
  View.cover_of_tiledL (kernelRun_C c i arg2 harg2 arg3 harg3 arg4 harg4 arg5 harg5 arg6 harg6 arg7 harg7 hc0 hc1 x0 x1 x2 x3 xs0).1 S1024x128.size (by sl_kernel_rfl) y

/-- What the last point of a run of four leaves in the output's staging buffer: the finished row slab, scaled and biased. -/
def out_C_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VO_4.read (Elt F) (VO_4.writes (Elt F) VO_4.junk (kernelRun_C c i arg2 harg2 arg3 harg3 arg4 harg4 arg5 harg5 arg6 harg6 arg7 harg7 hc0 hc1 x0 x1 x2 x3 xs0).1)

/-- The one store into the accumulator at the last point covers it whole. -/
theorem scover_C_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_C c i arg2 harg2 arg3 harg3 arg4 harg4 arg5 harg5 arg6 harg6 arg7 harg7 hc0 hc1 x0 x1 x2 x3 xs0).2.1, y ∈ pc.1.set :=
  View.cover_of_tiledL (kernelRun_C c i arg2 harg2 arg3 harg3 arg4 harg4 arg5 harg5 arg6 harg6 arg7 harg7 hc0 hc1 x0 x1 x2 x3 xs0).2.1 S1024x128.size (by sl_kernel_rfl) y

/-- What the last point leaves in the accumulator: the full sum over the four column tiles. -/
def sout_C_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VS.read (Elt F) (VS.writes (Elt F) VS.junk (kernelRun_C c i arg2 harg2 arg3 harg3 arg4 harg4 arg5 harg5 arg6 harg6 arg7 harg7 hc0 hc1 x0 x1 x2 x3 xs0).2.1)

/-! ## What the output's staging buffer and the accumulator hold after each point -/

/-- THE ACCUMULATION. The pair (output staging contents, accumulator contents) after the body at position `n`: the case
    the position selects (`n % 4 = 0`: clear and add; `n % 4 = 3`: add and store; otherwise: add), run on the point's
    memrefs and input blocks, the accumulator starting from what position `n - 1` left. No position has both remainders. -/
def outsAt (c : Dev nD) : (n : ℕ) → n < cfg1.N → Vec F S1024x128 .f32 × Vec F S1024x128 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 32 := lt_of_lt_of_eq hn (show cfg1.N = 32 from N_1); omega)
      else
        (out_A_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at the first point of a run of four. -/
theorem outsAt_A (c : Dev nD) (t : Fin cfg1.N) (h0 : t.val % 4 = 0) (h1 : ¬t.val % 4 = 3) :
    outsAt V c t.val t.isLt = (out_A_4 c (grid1.coords t) (ms_0 t) (hs_0 t) (ms_1 t) (hs_1 t) (ms_2 t) (hs_2 t) (ms_3 t) (hs_3 t) (ms_4 t) (hs_4 t) scM (Memref.isWhole_whole _) ((hcond0 t).mpr h0) (fun h => h1 ((hcond1 t).mp h)) (iblk V c 0 t) (iblk V c 1 t) (iblk V c 2 t) (iblk V c 3 t), sout_A_0 c (grid1.coords t) (ms_0 t) (hs_0 t) (ms_1 t) (hs_1 t) (ms_2 t) (hs_2 t) (ms_3 t) (hs_3 t) (ms_4 t) (hs_4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt` at a middle point of a run of four: over what the point before left in the accumulator. -/
theorem outsAt_B (c : Dev nD) (t : Fin cfg1.N) (h0 : ¬t.val % 4 = 0) (h1 : ¬t.val % 4 = 3) :
    outsAt V c t.val t.isLt = (out_B_4 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at the last point of a run of four: over what the point before left in the accumulator. -/
theorem outsAt_C (c : Dev nD) (t : Fin cfg1.N) (h0 : ¬t.val % 4 = 0) (h1 : t.val % 4 = 3) :
    outsAt V c t.val t.isLt = (out_C_4 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The invariant before position `n`: before the first point what the launch hands over (the accumulator at anything);
    afterwards the first kernel's scoped buffers untouched, the accumulator at what the point before left in it, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c (n - 1) (by omega)).2)) ∗ (∃ r, prngReg c r)) := by
  cases n with
  | zero => exact absurd rfl hz
  | succ n => rfl

/-! ## The pipeline's proof data -/

/-- The proof data of the second kernel's pipeline on core `c`: the arrays as the region finds them; after the body at
    point `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`: the invariant, what the core owes, and each window's current staging
    buffer at what it then holds, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the position's remainder modulo four says which case
    the point is in; the invariant hands the body the accumulator at what the point before left (at anything at the very
    first point) and takes it back at this point's contents, because the case's stores cover it; the output's buffer is
    handed back untouched where the case stores nothing into it, and at the finished slab where it does; the first
    kernel's scoped buffers, the generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond0 t).mpr h0) (fun h => h1 ((hcond1 t).mp h))) (noFlush_4_A t ((hcond0 t).mpr h0) (fun h => h1 ((hcond1 t).mp h)))]
      rw [outsAt_A V c t h0 h1]
      unfold sout_A_0; (try dsimp only)
      by_cases hz : t.val = 0
      · rw [PhiS_castSucc V c t, PhiS_zero V c _ _ hz, PhiA_eq]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_A c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_A c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond0 t).mp h)) ((hcond1 t).mpr h1)], after_4]
      rw [outsAt_C V c t h0 h1]
      unfold out_C_4 sout_C_0; (try dsimp only)
      by_cases hz : t.val = 0
      · exfalso; omega
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_C c (grid1.coords t) _ _ _ _ _ _ _ _ _ _ _ _ (fun h => h0 ((hcond0 t).mp h)) ((hcond1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_C_4 c _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond0 t).mp h)) (fun h => h1 ((hcond1 t).mp h))) (noFlush_4_B t (fun h => h0 ((hcond0 t).mp h)) (fun h => h1 ((hcond1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_B c (grid1.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: what the accumulator holds is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, HS0⟩, Hg⟩
  isplitl [R1 R2 R3 R4 R5 HS0]
  · isplitl [R1]; · iexact R1
    isplitl [R2]; · iexact R2
    isplitl [R3]; · iexact R3
    isplitl [R4]; · iexact R4
    isplitl [R5]; · iexact R5
    iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.KernelIdeal.R1

end
-- ==== Proof.RunAll.lean ====
/-
  The whole program as three segments — the row-sum kernel, a stretch of host operations, the aggregation kernel — and
  its run: every weakly fair execution terminates, nothing faults, and every unscoped buffer ends at the contents named
  here.

  The buffers' contents at each boundary are a fold from the launch memory: after a kernel its windows' arrays hold
  what its write-backs leave (an input array what it held; the output array block by block what the points wrote) and
  every other buffer what it held; after the host stretch each operation's result.  The frame claim and the value of the
  result are both read off the last valuation.
-/
import proofs.«180980_j15479062135162_2_alg».proof.Proof.R0Frame
import proofs.«180980_j15479062135162_2_alg».proof.Proof.R1Frame
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the row-sum kernel's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- After the row-sum kernel: its arrays at what the write-backs leave, every other buffer as entered. -/
def B1 (c : Dev nD) : Valuation τ sig (Elt F) :=
  Pipeline.withArrays spec0 c (B0 m ρ c) fun w => (R0.dat (E0 m ρ) c).arrAt w cfg0.N
theorem B1_arr (c : Dev nD) (w : Fin cfg0.W) :
    B1 m ρ c (Proc.devRef .tc (Pipeline.arrRef spec0 w)) = (R0.dat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (R0.dat (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host stretch (the aggregation kernel's entry). -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the aggregation kernel: its arrays at what the write-backs leave, every other buffer as entered. -/
def B3 (c : Dev nD) : Valuation τ sig (Elt F) :=
  Pipeline.withArrays spec1 c (B2 m ρ c) fun w => (R1.dat (E2 m ρ) c).arrAt w cfg1.N
theorem B3_arr (c : Dev nD) (w : Fin cfg1.W) :
    B3 m ρ c (Proc.devRef .tc (Pipeline.arrRef spec1 w)) = (R1.dat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (R1.dat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- Argument 0 ends as launched: no host operation writes it and each kernel only reads it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := B1_of_ne m ρ c main_arg0 (by decide)
    _ = m ((c : Thread nD τ).loc main_arg0) := rfl

/-- Argument 1 ends as launched: no host operation writes it and each kernel only reads it (through an input window). -/
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((R1.dat (E2 m ρ) c).arrAt_in 0 rfl _).trans (R1.A_eq (E2 m ρ) c 0))
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 0).trans (((R0.dat (E0 m ρ) c).arrAt_in 0 rfl _).trans (R0.A_eq (E0 m ρ) c 0))
    _ = m ((c : Thread nD τ).loc main_arg1) := rfl

/-- Argument 2 ends as launched: no host operation writes it and each kernel only reads it. -/
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

/-- Argument 3 ends as launched: no host operation writes it and each kernel only reads it. -/
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

/-! ## The proof data family and the thread state -/

/-- No kernel has a prefetched table. -/
abbrev adm : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm p) c
  | ⟨0, _⟩ => fun c => R0.dat (E0 m ρ) c
  | ⟨1, _⟩ => fun c => R1.dat (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B3 m ρ c) ∗ ∃ r, prngReg c r)

/-! ## The kernels as segments -/

-- an entailment stated over the pinned configuration unifies with the printed one only when unification may unfold
-- plain definitions in a metavariable's type
set_option backward.isDefEq.respectTransparency.types false in
/-- Kernel 0 as a segment of the program: entered from every unscoped buffer at the boundary's contents, left at the
    next boundary's. Its arrays are split out of the unscoped buffers on entry and put back at what the write-backs
    leave on exit; the generator register and the scoped buffers go into the kernel's invariant and come back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (E0 m ρ) c)
    unfold Pipeline.ΦA
    iintro ⟨Hp, -, Hr⟩
    isplitl [Hr]; · iexact Hr
    iexact Hp
  hout c := by
    rw [Pipeline.ownSems0_none]
    refine BIBase.Entails.trans (R0.hout (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment stated over the pinned configuration unifies with the printed one only when unification may unfold
-- plain definitions in a metavariable's type
set_option backward.isDefEq.respectTransparency.types false in
/-- Kernel 1 as a segment of the program: entered from every unscoped buffer at the boundary's contents, left at the
    next boundary's. Its arrays are split out of the unscoped buffers on entry and put back at what the write-backs
    leave on exit; the generator register and the scoped buffers go into the kernel's invariant and come back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (E2 m ρ) c)
    unfold Pipeline.ΦA
    iintro ⟨Hp, -, Hr⟩
    isplitl [Hr]; · iexact Hr
    iexact Hp
  hout c := by
    rw [Pipeline.ownSems0_none]
    refine BIBase.Entails.trans (R1.hout (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faults,
    and every unscoped TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.KernelIdeal.Run

end
-- ==== Proof.KR0Runs.lean ====
/-
  The row-sum kernel (the first of the program's two kernels), what its per-case runs share.

  The kernel visits a grid of 8 row blocks by 4 column blocks, the column block changing fastest, so the point
  numbered `t` handles column block `t % 4` of row block `t / 4`.  It keeps a [1024, 1] accumulator in a scratch
  buffer across the four points of a row block: it clears it where `t % 4 = 0`, adds the block's row sums at every
  point, and where `t % 4 = 3` stores `rsqrt (accumulator + ε)` into the output block.  Here: a window's block read
  off the array the kernel finds on entry, the two branch conditions in closed form over the grid, where the output
  window is idle, and the memrefs the body is called with.
-/
import proofs.«180980_j15479062135162_2_alg».proof.Proof.Gen.Kernel.Launch
import proofs.«180980_j15479062135162_2_alg».proof.Proof.Gen.Kernel.Skeleton
import proofs.«180980_j15479062135162_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the kernel is entered
variable (V : (c : Dev nD) → (b : Ref sig .tc) → Buf (Elt F) ((c : Thread nD τ).loc b))

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first column block": the condition under which the accumulator is cleared. -/
abbrev cond0 (i : grid0.Coords) : Prop := (Scalar.cmpi .ne (Scalar.extui (Scalar.cmpi .eq (BitVec.ofNat 32 (i 1).val) 0#32)) 0#32) = 1#1
/-- It holds at the points `t` with `t % 4 = 0`. -/
theorem hcond0 : ∀ t : Fin cfg0.N, cond0 (grid0.coords t) ↔ t.val % 4 = 0 :=
  (by decide +kernel : ∀ t : Fin grid0.N, cond0 (grid0.coords t) ↔ t.val % 4 = 0)

/-- "This is the last column block": the condition under which the output block is stored. -/
abbrev cond1 (i : grid0.Coords) : Prop := k0_cond2 i = 1#1
/-- It holds at the points `t` with `t % 4 = 3`. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

/-- The input window is never idle. -/
theorem liveAt_0 : ∀ t : Fin cfg0.N, cfg0.idle 0 (grid0.coords t) = false := by decide +kernel
/-- Where the output block is not stored the output window is idle, -/
theorem idleAt_1 : ∀ t : Fin cfg0.N, ¬cond1 (grid0.coords t) → cfg0.idle 1 (grid0.coords t) = true := by decide +kernel
/-- and its block is not written back there. -/
theorem noFlush_1 : ∀ t : Fin cfg0.N, ¬cond1 (grid0.coords t) → (cfg0.win 1).flush t = false := by decide +kernel
/-- Where the output block is stored the window is live. -/
theorem liveAt_1 : ∀ t : Fin cfg0.N, cond1 (grid0.coords t) → cfg0.idle 1 (grid0.coords t) = false := by decide +kernel

/-! ## The memrefs the body is called with -/

/-- One staging buffer of the output window, through which its contents are stated. -/
abbrev VO_1 : View sig .tc .vmem S1024x1 .f32 := (Memref.whole cc0_stg1_0 : Memref sig .tc .vmem S1024x1 .f32).view
/-- Each window's current staging memref at point `t`, and its wholeness. -/
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x1 .f32 := win0_1.stage (cfg0.slots t 1)
abbrev hs_1 (t : Fin cfg0.N) : (ms_1 t).IsWhole := hstage0_1 ((cfg0.slots t 1).cast nbuf0_1)
/-- The accumulator: a whole scoped buffer of the kernel's own. -/
abbrev scM : Memref sig .tc .vmem S1024x1 .f32 := Memref.whole cc0_scratch0
/-- The accumulator as a view: what it holds is stated through it. -/
abbrev VS : View sig .tc .vmem S1024x1 .f32 := scM.view

/-- The other kernel's staging buffers and accumulator, each at some contents: this kernel never touches them, and they
    ride along from point to point. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the kernel may use besides its windows: its accumulator at some contents, the other kernel's buffers, and the
    generator register at some state. -/
theorem PhiA_eq (c : Dev nD) :
    (Pipeline.ΦA spec0 c : sProp 𝕄)
      = iprop(iprop((∃ d, owns (c : Thread nD τ) scM fullShare d) ∗ Rest c) ∗ (∃ r, prngReg c r)) := by
  unfold Pipeline.ΦA Rest; rw [scopedRest0_eq]; simp only [scM, owns_whole]; try rfl

end Cert.Kernel.R0

end
-- ==== Proof.KR0RunA.lean ====
/-
  The row-sum kernel's body at a point of the first column block (`t % 4 = 0`): the accumulator, whatever it held,
  is cleared and then receives the block's row sums; the output block is left untouched.
-/
import proofs.«180980_j15479062135162_2_alg».proof.Proof.KR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the accumulator at such a point, as pieces (last first), with the proof that from
    the input block at `x0`, the output buffer at `xi1` and the accumulator at anything the body runs to the
    continuation holding the input and output buffers as they were and the accumulator with those pieces written. -/
noncomputable def kernelRun_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R0

end
-- ==== Proof.KR0RunB.lean ====
/-
  The row-sum kernel's body at a point of a middle column block (`t % 4` is 1 or 2): the block's row sums are added
  to the accumulator the point before left; the output block is left untouched.
-/
import proofs.«180980_j15479062135162_2_alg».proof.Proof.KR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the accumulator at such a point, as pieces (last first), with the proof that from
    the input block at `x0`, the output buffer at `xi1` and the accumulator at `xs0` the body runs to the
    continuation holding the input and output buffers as they were and the accumulator with those pieces written. -/
noncomputable def kernelRun_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨[], ?_, fun xi1 E K => ?run⟩
  case run =>
    simp only [cc0__rowsum_kernel_eq_skeleton]; unfold cc0__rowsum_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R0

end
-- ==== Proof.KR0RunC.lean ====
/-
  The row-sum kernel's body at a point of the last column block (`t % 4 = 3`): the block's row sums are added to the
  accumulator the point before left, and the output block is stored from the completed accumulator.
-/
import proofs.«180980_j15479062135162_2_alg».proof.Proof.KR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes into the output buffer and into the accumulator at such a point, as pieces (last first),
    with the proof that from the input block at `x0`, the output buffer at anything and the accumulator at `xs0` the
    body runs to the continuation holding the input buffer as it was and the other two with their pieces written. -/
noncomputable def kernelRun_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__rowsum_kernel i arg2 harg2 arg3 harg3 arg4 harg4) K } := by
  refine ⟨?_, ?_, fun E K => ?run⟩
  case run =>
    simp only [cc0__rowsum_kernel_eq_skeleton]; unfold cc0__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.R0

end
-- ==== Proof.KR0Frame.lean ====
/-
  The row-sum kernel: what it leaves point by point, its proof data, and its body obligation.

  After the body at point `t` the accumulator holds the row sums of column blocks `0 … t % 4` of row block `t / 4`
  (cleared at `t % 4 = 0`, then one block's row sums added per point), and at `t % 4 = 3` the output block holds
  `rsqrt (accumulator + ε)`.  `outsAt` states this by recursion on the point: each case of the two branch conditions
  run on the point's input block and on what the point before left in the accumulator.  The invariant carried from
  point to point is the accumulator at exactly that contents.
-/
import proofs.«180980_j15479062135162_2_alg».proof.Proof.KR0RunA
import proofs.«180980_j15479062135162_2_alg».proof.Proof.KR0RunB
import proofs.«180980_j15479062135162_2_alg».proof.Proof.KR0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the kernel is entered
variable (V : (c : Dev nD) → (b : Ref sig .tc) → Buf (Elt F) ((c : Thread nD τ).loc b))

/-! ## What each case leaves -/

/-- At a first-column-block point nothing is stored into the output buffer: a placeholder nothing consults (the window
    is idle there and not written back). -/
def out_A_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) : Vec F S1024x1 .f32 :=
  VO_1.read (Elt F) (VO_1.writes (Elt F) VO_1.junk (kernelRun_A c i arg2 harg2 arg3 harg3 arg4 harg4 hc0 hc1 x0).1)

/-- The stores into the accumulator at a first-column-block point cover it. -/
theorem scover_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) (y : S1024x1.Idx) :
    ∃ pc ∈ (kernelRun_A c i arg2 harg2 arg3 harg3 arg4 harg4 hc0 hc1 x0).2.1, y ∈ pc.1.set :=
  View.cover_of_tiledL (kernelRun_A c i arg2 harg2 arg3 harg3 arg4 harg4 hc0 hc1 x0).2.1 S1024x1.size (by sl_kernel_rfl) y

/-- What a first-column-block point leaves in the accumulator. -/
def sout_A (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) : Vec F S1024x1 .f32 :=
  VS.read (Elt F) (VS.writes (Elt F) VS.junk (kernelRun_A c i arg2 harg2 arg3 harg3 arg4 harg4 hc0 hc1 x0).2.1)

/-- At a middle-column-block point nothing is stored into the output buffer: a placeholder nothing consults. -/
def out_B_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) : Vec F S1024x1 .f32 :=
  VO_1.read (Elt F) (VO_1.writes (Elt F) VO_1.junk (kernelRun_B c i arg2 harg2 arg3 harg3 arg4 harg4 hc0 hc1 x0 xs0).1)

/-- The store into the accumulator at a middle-column-block point covers it. -/
theorem scover_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) (y : S1024x1.Idx) :
    ∃ pc ∈ (kernelRun_B c i arg2 harg2 arg3 harg3 arg4 harg4 hc0 hc1 x0 xs0).2.1, y ∈ pc.1.set :=
  View.cover_of_tiledL (kernelRun_B c i arg2 harg2 arg3 harg3 arg4 harg4 hc0 hc1 x0 xs0).2.1 S1024x1.size (by sl_kernel_rfl) y

/-- What a middle-column-block point leaves in the accumulator. -/
def sout_B (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) : Vec F S1024x1 .f32 :=
  VS.read (Elt F) (VS.writes (Elt F) VS.junk (kernelRun_B c i arg2 harg2 arg3 harg3 arg4 harg4 hc0 hc1 x0 xs0).2.1)

/-- The store into the output buffer at a last-column-block point covers it. -/
theorem cover_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) (y : S1024x1.Idx) :
    ∃ pc ∈ (kernelRun_C c i arg2 harg2 arg3 harg3 arg4 harg4 hc0 hc1 x0 xs0).1, y ∈ pc.1.set :=
  View.cover_of_tiledL (kernelRun_C c i arg2 harg2 arg3 harg3 arg4 harg4 hc0 hc1 x0 xs0).1 S1024x1.size (by sl_kernel_rfl) y

/-- What a last-column-block point leaves in the output buffer. -/
def out_C_1 (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) : Vec F S1024x1 .f32 :=
  VO_1.read (Elt F) (VO_1.writes (Elt F) VO_1.junk (kernelRun_C c i arg2 harg2 arg3 harg3 arg4 harg4 hc0 hc1 x0 xs0).1)

/-- The store into the accumulator at a last-column-block point covers it. -/
theorem scover_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) (y : S1024x1.Idx) :
    ∃ pc ∈ (kernelRun_C c i arg2 harg2 arg3 harg3 arg4 harg4 hc0 hc1 x0 xs0).2.1, y ∈ pc.1.set :=
  View.cover_of_tiledL (kernelRun_C c i arg2 harg2 arg3 harg3 arg4 harg4 hc0 hc1 x0 xs0).2.1 S1024x1.size (by sl_kernel_rfl) y

/-- What a last-column-block point leaves in the accumulator. -/
def sout_C (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) : Vec F S1024x1 .f32 :=
  VS.read (Elt F) (VS.writes (Elt F) VS.junk (kernelRun_C c i arg2 harg2 arg3 harg3 arg4 harg4 hc0 hc1 x0 xs0).2.1)

/-! ## What the output buffer and the accumulator hold after each point -/

/-- After the body at position `n`: (the output window's staging buffer, the accumulator).  The case the closed forms
    select at `n`, run on the point's input block and on what position `n - 1` left in the accumulator. -/
def outsAt (c : Dev nD) : (n : ℕ) → n < cfg0.N → Vec F S1024x1 .f32 × Vec F S1024x1 .f32
  | 0, hn => (out_A_1 c (grid0.coords ⟨0, hn⟩) (ms_0 ⟨0, hn⟩) (hs_0 ⟨0, hn⟩) (ms_1 ⟨0, hn⟩) (hs_1 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩), sout_A c (grid0.coords ⟨0, hn⟩) (ms_0 ⟨0, hn⟩) (hs_0 ⟨0, hn⟩) (ms_1 ⟨0, hn⟩) (hs_1 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩))
  | n + 1, hn =>
    if h0 : (n + 1) % 4 = 0 then
      if h1 : (n + 1) % 4 = 3 then
        False.elim (by omega)
      else
        (out_A_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) ((hcond0 ⟨n + 1, hn⟩).mpr h0) (fun h => h1 ((hcond1 ⟨n + 1, hn⟩).mp h)) (iblk V c 0 ⟨n + 1, hn⟩), sout_A c (grid0.coords ⟨n + 1, hn⟩) (ms_0 ⟨n + 1, hn⟩) (hs_0 ⟨n + 1, hn⟩) (ms_1 ⟨n + 1, hn⟩) (hs_1 ⟨n + 1, hn⟩) scM (Memref.isWhole_whole _) ((hcond0 ⟨n + 1, hn⟩).mpr h0) (fun h => h1 ((hcond1 ⟨n + 1, hn⟩).mp h)) (iblk V c 0 ⟨n + 1, hn⟩))
    else
      if h1 : (n + 1) % 4 = 3 then
        (out_C_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) ((hcond1 ⟨n + 1, hn⟩).mpr h1) (iblk V c 0 ⟨n + 1, hn⟩) (outsAt c n (Nat.lt_of_succ_lt hn)).2, sout_C c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) ((hcond1 ⟨n + 1, hn⟩).mpr h1) (iblk V c 0 ⟨n + 1, hn⟩) (outsAt c n (Nat.lt_of_succ_lt hn)).2)
      else
        (out_B_1 c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (outsAt c n (Nat.lt_of_succ_lt hn)).2, sout_B c (grid0.coords ⟨n + 1, hn⟩) (ms_0 ⟨n + 1, hn⟩) (hs_0 ⟨n + 1, hn⟩) (ms_1 ⟨n + 1, hn⟩) (hs_1 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (outsAt c n (Nat.lt_of_succ_lt hn)).2)

/-- `outsAt` at a first-column-block point. -/
theorem outsAt_A (c : Dev nD) (t : Fin cfg0.N) (h0 : t.val % 4 = 0) (h1 : ¬t.val % 4 = 3) :
    outsAt V c t.val t.isLt = (out_A_1 c (grid0.coords t) (ms_0 t) (hs_0 t) (ms_1 t) (hs_1 t) scM (Memref.isWhole_whole _) ((hcond0 t).mpr h0) (fun h => h1 ((hcond1 t).mp h)) (iblk V c 0 t), sout_A c (grid0.coords t) (ms_0 t) (hs_0 t) (ms_1 t) (hs_1 t) scM (Memref.isWhole_whole _) ((hcond0 t).mpr h0) (fun h => h1 ((hcond1 t).mp h)) (iblk V c 0 t)) := by
  obtain ⟨n, hn⟩ := t
  cases n with
  | zero => exact rfl
  | succ n => exact (dif_pos h0).trans ((dif_neg h1).trans rfl)

/-- `outsAt` at a middle-column-block point: over what the point before left. -/
theorem outsAt_B (c : Dev nD) (t : Fin cfg0.N) (h0 : ¬t.val % 4 = 0) (h1 : ¬t.val % 4 = 3) :
    outsAt V c t.val t.isLt = (out_B_1 c (grid0.coords t) (ms_0 t) (hs_0 t) (ms_1 t) (hs_1 t) scM (Memref.isWhole_whole _) (fun h => h0 ((hcond0 t).mp h)) (fun h => h1 ((hcond1 t).mp h)) (iblk V c 0 t) (outsAt V c (t.val - 1) (Nat.lt_of_le_of_lt (Nat.sub_le _ _) t.isLt)).2, sout_B c (grid0.coords t) (ms_0 t) (hs_0 t) (ms_1 t) (hs_1 t) scM (Memref.isWhole_whole _) (fun h => h0 ((hcond0 t).mp h)) (fun h => h1 ((hcond1 t).mp h)) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last-column-block point: over what the point before left. -/
theorem outsAt_C (c : Dev nD) (t : Fin cfg0.N) (h0 : ¬t.val % 4 = 0) (h1 : t.val % 4 = 3) :
    outsAt V c t.val t.isLt = (out_C_1 c (grid0.coords t) (ms_0 t) (hs_0 t) (ms_1 t) (hs_1 t) scM (Memref.isWhole_whole _) (fun h => h0 ((hcond0 t).mp h)) ((hcond1 t).mpr h1) (iblk V c 0 t) (outsAt V c (t.val - 1) (Nat.lt_of_le_of_lt (Nat.sub_le _ _) t.isLt)).2, sout_C c (grid0.coords t) (ms_0 t) (hs_0 t) (ms_1 t) (hs_1 t) scM (Memref.isWhole_whole _) (fun h => h0 ((hcond0 t).mp h)) ((hcond1 t).mpr h1) (iblk V c 0 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

/-- Before position `n`: at the first point what the launch hands the kernel (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ Rest c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ Rest c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ Rest c) ∗ (∃ r, prngReg c r)) := by
  cases n with
  | zero => exact absurd rfl hz
  | succ n => rfl

/-! ## The proof data -/

/-- The kernel's proof data on core `c`: the arrays as found on entry; after the body at point `t` the input's buffer
    at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]

theorem before_0 (c : Dev nD) (t : Fin cfg0.N) (d) : (dat V c).before 0 t d = iblk V c 0 t :=
  before_0_of V (dat V c) (A_eq V c 0) (after_0 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the input's memref holds its block; the closed forms say which case the point is in; the
    invariant hands the body the accumulator at what the point before left (at anything at the very first point) and
    takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dat V c).leavesExact 0 t = owns (c : Thread nD τ) (ms_0 t) fullShare ((dat V c).after 0 t) from by
        unfold Dat.leavesExact; rw [liveAt_0 t], after_0]
      rw [Dat.leavesExact_idle (dat V c) 1 t (idleAt_1 t (fun h => h1 ((hcond1 t).mp h))) (noFlush_1 t (fun h => h1 ((hcond1 t).mp h)))]
      rw [outsAt_A V c t h0 h1]
      unfold sout_A; (try dsimp only)
      by_cases hz : t.val = 0
      · rw [PhiS_castSucc V c t, PhiS_zero V c _ _ hz, PhiA_eq]
        iintro ⟨⟨⟨HS0, HR⟩, Hg⟩, Ho, ⟨%d0, H0⟩, ⟨%d1, H1⟩⟩
        iapply ((kernelRun_A c (grid0.coords t) _ _ _ _ _ _ ((hcond0 t).mpr h0) (fun h => h1 ((hcond1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _)
            iexact HR
          iexact Hg
        isplitl [Ho]; · iexact Ho
        isplitl [H0]; · iexact H0
        iexists _; iexact H1
      · rw [PhiS_castSucc V c t, PhiS_pos V c _ _ hz]
        iintro ⟨⟨⟨HS0, HR⟩, Hg⟩, Ho, ⟨%d0, H0⟩, ⟨%d1, H1⟩⟩
        iapply ((kernelRun_A c (grid0.coords t) _ _ _ _ _ _ ((hcond0 t).mpr h0) (fun h => h1 ((hcond1 t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover_A c _ _ _ _ _ _ _ _ _ _)
            iexact HR
          iexact Hg
        isplitl [Ho]; · iexact Ho
        isplitl [H0]; · iexact H0
        iexists _; iexact H1
  · have hz : t.val ≠ 0 := fun hz => h0 (by rw [hz])
    by_cases h1 : t.val % 4 = 3
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t ((hcond1 t).mpr h1)], after_1]
      rw [outsAt_C V c t h0 h1]
      unfold out_C_1 sout_C; (try dsimp only)
      rw [PhiS_castSucc V c t, PhiS_pos V c _ _ hz]
      iintro ⟨⟨⟨HS0, HR⟩, Hg⟩, Ho, ⟨%d0, H0⟩, ⟨%d1, H1⟩⟩
      iapply ((kernelRun_C c (grid0.coords t) _ _ _ _ _ _ (fun h => h0 ((hcond0 t).mp h)) ((hcond1 t).mpr h1) (iblk V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_C c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover_C_1 c _ _ _ _ _ _ _ _ _ _ _)
    · rw [show (dat V c).leavesExact 0 t = owns (c : Thread nD τ) (ms_0 t) fullShare ((dat V c).after 0 t) from by
        unfold Dat.leavesExact; rw [liveAt_0 t], after_0]
      rw [Dat.leavesExact_idle (dat V c) 1 t (idleAt_1 t (fun h => h1 ((hcond1 t).mp h))) (noFlush_1 t (fun h => h1 ((hcond1 t).mp h)))]
      rw [outsAt_B V c t h0 h1]
      unfold sout_B; (try dsimp only)
      rw [PhiS_castSucc V c t, PhiS_pos V c _ _ hz]
      iintro ⟨⟨⟨HS0, HR⟩, Hg⟩, Ho, ⟨%d0, H0⟩, ⟨%d1, H1⟩⟩
      iapply ((kernelRun_B c (grid0.coords t) _ _ _ _ _ _ (fun h => h0 ((hcond0 t).mp h)) (fun h => h1 ((hcond1 t).mp h)) (iblk V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover_B c _ _ _ _ _ _ _ _ _ _ _)
          iexact HR
        iexact Hg
      isplitl [Ho]; · iexact Ho
      isplitl [H0]; · iexact H0
      iexists _; iexact H1

/-- The body obligation, at every point. -/
theorem body_obligation (c : Dev nD) : BodyObligation (dat (F := F) V c) (defs₀ (F := F)) Variants.none () Set.univ := fun t => by
  rw [bigSep_W0, bigSep_W0]
  exact sound_body V c t

/-- What the launch hands the kernel is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.Kernel.R0

end
-- ==== Proof.KR1Runs.lean ====
import proofs.«180980_j15479062135162_2_alg».proof.Proof.Gen.Kernel.Launch
import proofs.«180980_j15479062135162_2_alg».proof.Proof.Gen.Kernel.Skeleton
import proofs.«180980_j15479062135162_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

/-! ## The windows' blocks -/

/-- Window `w`'s block at grid point `t`, read off its array as the region finds it: for the adjacency window the
    1024 x 2048 tile at block row `t / 4` and block column `t % 4`, for the feature window the 2048 x 128 row slab
    `t % 4`, for the degree window the 1024 x 1 slab `t / 4`, the bias row, and the output's 1024 x 128 slab `t / 4`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not (unfetched, the block index has not moved since the point that fetched it), for any proof data whose array
    is the entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (unfetched, the block index has not moved since the point that fetched it), for any proof data whose array
    is the entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (unfetched, the block index has not moved since the point that fetched it), for any proof data whose array
    is the entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (unfetched, the block index has not moved since the point that fetched it), for any proof data whose array
    is the entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional's test: the inner grid coordinate is zero (the accumulator is cleared there). -/
abbrev cond0 (i : grid1.Coords) : Prop := (Scalar.cmpi .ne (Scalar.extui (Scalar.cmpi .eq (BitVec.ofNat 32 (i 1).val) 0#32)) 0#32) = 1#1
/-- It holds exactly at the points whose position is a multiple of four. -/
theorem hcond0 : ∀ t : Fin cfg1.N, cond0 (grid1.coords t) ↔ t.val % 4 = 0 :=
  (by decide +kernel : ∀ t : Fin grid1.N, cond0 (grid1.coords t) ↔ t.val % 4 = 0)

/-- The second conditional's test: the inner grid coordinate is three (the row slab is finished and stored there). -/
abbrev cond1 (i : grid1.Coords) : Prop := k1_cond2 i = 1#1
/-- It holds exactly at the points whose position is three modulo four. -/
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

/-- The four inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- Where the accumulator is cleared the output window is idle (nothing is stored into it) -/
theorem idleAt_4_A : ∀ t : Fin cfg1.N, cond0 (grid1.coords t) → ¬cond1 (grid1.coords t) → cfg1.idle 4 (grid1.coords t) = true := by decide +kernel
/-- and its block is not written back there. -/
theorem noFlush_4_A : ∀ t : Fin cfg1.N, cond0 (grid1.coords t) → ¬cond1 (grid1.coords t) → (cfg1.win 4).flush t = false := by decide +kernel
/-- Likewise at the two middle points of each run of four: idle, -/
theorem idleAt_4_B : ∀ t : Fin cfg1.N, ¬cond0 (grid1.coords t) → ¬cond1 (grid1.coords t) → cfg1.idle 4 (grid1.coords t) = true := by decide +kernel
/-- and not written back. -/
theorem noFlush_4_B : ∀ t : Fin cfg1.N, ¬cond0 (grid1.coords t) → ¬cond1 (grid1.coords t) → (cfg1.win 4).flush t = false := by decide +kernel
/-- At the last point of each run of four the output window is live: the finished slab is stored into it. -/
theorem liveAt_4_C : ∀ t : Fin cfg1.N, ¬cond0 (grid1.coords t) → cond1 (grid1.coords t) → cfg1.idle 4 (grid1.coords t) = false := by decide +kernel

/-! ## The memrefs the body is called with -/

/-- One staging buffer of the output window, through which its contents are stated (which of the two does not matter:
    pieces that cover a buffer read back the same through any whole view). -/
abbrev VO_4 : View sig .tc .vmem S1024x128 .f32 := (Memref.whole cc1_stg4_0 : Memref sig .tc .vmem S1024x128 .f32).view
/-- Each window's current staging memref at point `t`, spelled as the pipeline passes it, and its wholeness. -/
abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x128 .f32 := win1_4.stage (cfg1.slots t 4)
abbrev hs_4 (t : Fin cfg1.N) : (ms_4 t).IsWhole := hstage1_4 ((cfg1.slots t 4).cast nbuf1_4)
/-- The accumulator: a whole scoped buffer of the kernel's own, passed beside the windows and carried from point to point. -/
abbrev scM : Memref sig .tc .vmem S1024x128 .f32 := Memref.whole cc1_scratch0
/-- The same as a view: what the accumulator holds is stated through it. -/
abbrev VS : View sig .tc .vmem S1024x128 .f32 := scM.view

/-! ## The region's invariant -/

/-- The scoped buffers of the core that belong to the first kernel (its four staging buffers and its accumulator), each
    at some contents: this kernel never touches them. -/
def Rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- What the launch hands the region: the first kernel's scoped buffers, this kernel's accumulator owned as a memref at
    some contents, and the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ (∃ d, owns (c : Thread nD τ) scM fullShare d)) ∗ (∃ r, prngReg c r)) := by
  unfold Pipeline.ΦA; rw [scopedRest1_eq]; simp only [scM, owns_whole]; try rfl

end Cert.Kernel.R1

end
-- ==== Proof.KR1RunA.lean ====
import proofs.«180980_j15479062135162_2_alg».proof.Proof.KR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE FIRST POINT OF EACH RUN OF FOUR (inner coordinate 0): the body clears the accumulator, then adds this point's
    product `adj_tile · xw_slab` to it, and stores nothing into the output. What its stores leave in the output's
    staging memref (no pieces) and in the accumulator (two pieces, last first), WITH the proof that on whole memrefs —
    the four inputs at their contents, the output's at contents `xi4` handed back untouched, the accumulator at anything —
    the body runs to a continuation holding the inputs as they were, the output as it was, and the accumulator with its
    pieces written. -/
noncomputable def kernelRun_A (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.R1

end
-- ==== Proof.KR1RunB.lean ====
import proofs.«180980_j15479062135162_2_alg».proof.Proof.KR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE TWO MIDDLE POINTS OF EACH RUN OF FOUR (inner coordinate 1 or 2): the body adds this point's product
    `adj_tile · xw_slab` to the accumulator and stores nothing into the output. What its stores leave in the output's
    staging memref (no pieces) and in the accumulator (one piece), WITH the proof that on whole memrefs — the four inputs
    at their contents, the output's at contents `xi4` handed back untouched, the accumulator at what the point before
    left (`xs0`) — the body runs to a continuation holding the inputs as they were, the output as it was, and the
    accumulator with its piece written. -/
noncomputable def kernelRun_B (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.R1

end
-- ==== Proof.KR1RunC.lean ====
import proofs.«180980_j15479062135162_2_alg».proof.Proof.KR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

set_option maxHeartbeats 1000000 in
/-- THE LAST POINT OF EACH RUN OF FOUR (inner coordinate 3): the body adds this point's product `adj_tile · xw_slab` to
    the accumulator, then scales the finished sum by the row's degree factor, adds the bias and stores the slab into the
    output. What its stores leave in the output's staging memref (one piece) and in the accumulator (one piece), WITH the
    proof that on whole memrefs — the four inputs at their contents, the output's at anything, the accumulator at what
    the point before left (`xs0`) — the body runs to a continuation holding the inputs as they were and the output's and
    the accumulator's memrefs with their pieces written. -/
noncomputable def kernelRun_C (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R1

end
-- ==== Proof.KR1Frame.lean ====
import proofs.«180980_j15479062135162_2_alg».proof.Proof.KR1RunA
import proofs.«180980_j15479062135162_2_alg».proof.Proof.KR1RunB
import proofs.«180980_j15479062135162_2_alg».proof.Proof.KR1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the second kernel's region is entered: everything below is stated at it
variable (V : (c : Dev nD) → (b : Ref sig .tc) → Buf (Elt F) ((c : Thread nD τ).loc b))

/-! ## What each case leaves in the output's staging buffer and in the accumulator -/

/-- At the first point of a run of four nothing is stored into the output (the window is idle there and not written
    back): no pieces — a placeholder that nothing consults. -/
def out_A_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) : Vec F S1024x128 .f32 :=
  VO_4.read (Elt F) (VO_4.writes (Elt F) VO_4.junk (kernelRun_A c i arg2 harg2 arg3 harg3 arg4 harg4 arg5 harg5 arg6 harg6 arg7 harg7 hc0 hc1 x0 x1 x2 x3).1)

/-- The two stores into the accumulator at the first point of a run of four (the clearing, then the first product) each
    cover it whole. -/
theorem scover_A_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) (y : S1024x128.Idx) :
    ∃ pc ∈ (kernelRun_A c i arg2 harg2 arg3 harg3 arg4 harg4 arg5 harg5 arg6 harg6 arg7 harg7 hc0 hc1 x0 x1 x2 x3).2.1, y ∈ pc.1.set :=
  View.cover_of_tiledL (kernelRun_A c i arg2 harg2 arg3 harg3 arg4 harg4 arg5 harg5 arg6 harg6 arg7 harg7 hc0 hc1 x0 x1 x2 x3).2.1 S1024x128.size (by sl_kernel_rfl) y

/-- What the first point of a run of four leaves in the accumulator: its pieces read back. -/
def sout_A_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) : Vec F S1024x128 .f32 :=
  VS.read (Elt F) (VS.writes (Elt F) VS.junk (kernelRun_A c i arg2 harg2 arg3 harg3 arg4 harg4 arg5 harg5 arg6 harg6 arg7 harg7 hc0 hc1 x0 x1 x2 x3).2.1)

/-- At a middle point of a run of four nothing is stored into the output either: a placeholder again. -/
def out_B_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VO_4.read (Elt F) (VO_4.writes (Elt F) VO_4.junk (kernelRun_B c i arg2 harg2 arg3 harg3 arg4 harg4 arg5 harg5 arg6 harg6 arg7 harg7 hc0 hc1 x0 x1 x2 x3 xs0).1)

/-- The one store into the accumulator at a middle point covers it whole. -/
theorem scover_B_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_B c i arg2 harg2 arg3 harg3 arg4 harg4 arg5 harg5 arg6 harg6 arg7 harg7 hc0 hc1 x0 x1 x2 x3 xs0).2.1, y ∈ pc.1.set :=
  View.cover_of_tiledL (kernelRun_B c i arg2 harg2 arg3 harg3 arg4 harg4 arg5 harg5 arg6 harg6 arg7 harg7 hc0 hc1 x0 x1 x2 x3 xs0).2.1 S1024x128.size (by sl_kernel_rfl) y

/-- What a middle point leaves in the accumulator: the sum so far plus this point's product. -/
def sout_B_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VS.read (Elt F) (VS.writes (Elt F) VS.junk (kernelRun_B c i arg2 harg2 arg3 harg3 arg4 harg4 arg5 harg5 arg6 harg6 arg7 harg7 hc0 hc1 x0 x1 x2 x3 xs0).2.1)

/-- The one store into the output at the last point of a run of four covers its block whole. -/
theorem cover_C_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_C c i arg2 harg2 arg3 harg3 arg4 harg4 arg5 harg5 arg6 harg6 arg7 harg7 hc0 hc1 x0 x1 x2 x3 xs0).1, y ∈ pc.1.set :=
  View.cover_of_tiledL (kernelRun_C c i arg2 harg2 arg3 harg3 arg4 harg4 arg5 harg5 arg6 harg6 arg7 harg7 hc0 hc1 x0 x1 x2 x3 xs0).1 S1024x128.size (by sl_kernel_rfl) y

/-- What the last point of a run of four leaves in the output's staging buffer: the finished row slab, scaled and biased. -/
def out_C_4 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VO_4.read (Elt F) (VO_4.writes (Elt F) VO_4.junk (kernelRun_C c i arg2 harg2 arg3 harg3 arg4 harg4 arg5 harg5 arg6 harg6 arg7 harg7 hc0 hc1 x0 x1 x2 x3 xs0).1)

/-- The one store into the accumulator at the last point covers it whole. -/
theorem scover_C_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) (y : S1024x128.Idx) :
    ∃ pc ∈ (kernelRun_C c i arg2 harg2 arg3 harg3 arg4 harg4 arg5 harg5 arg6 harg6 arg7 harg7 hc0 hc1 x0 x1 x2 x3 xs0).2.1, y ∈ pc.1.set :=
  View.cover_of_tiledL (kernelRun_C c i arg2 harg2 arg3 harg3 arg4 harg4 arg5 harg5 arg6 harg6 arg7 harg7 hc0 hc1 x0 x1 x2 x3 xs0).2.1 S1024x128.size (by sl_kernel_rfl) y

/-- What the last point leaves in the accumulator: the full sum over the four column tiles. -/
def sout_C_0 (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) : Vec F S1024x128 .f32 :=
  VS.read (Elt F) (VS.writes (Elt F) VS.junk (kernelRun_C c i arg2 harg2 arg3 harg3 arg4 harg4 arg5 harg5 arg6 harg6 arg7 harg7 hc0 hc1 x0 x1 x2 x3 xs0).2.1)

/-! ## What the output's staging buffer and the accumulator hold after each point -/

/-- THE ACCUMULATION. The pair (output staging contents, accumulator contents) after the body at position `n`: the case
    the position selects (`n % 4 = 0`: clear and add; `n % 4 = 3`: add and store; otherwise: add), run on the point's
    memrefs and input blocks, the accumulator starting from what position `n - 1` left. No position has both remainders. -/
def outsAt (c : Dev nD) : (n : ℕ) → n < cfg1.N → Vec F S1024x128 .f32 × Vec F S1024x128 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 4 = 0 then
      if h1 : (n + 1) % 4 = 3 then
        False.elim (by have hN : n + 1 < 32 := lt_of_lt_of_eq hn (show cfg1.N = 32 from N_1); omega)
      else
        (out_A_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 4 = 3 then
        (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

/-- `outsAt` at the first point of a run of four. -/
theorem outsAt_A (c : Dev nD) (t : Fin cfg1.N) (h0 : t.val % 4 = 0) (h1 : ¬t.val % 4 = 3) :
    outsAt V c t.val t.isLt = (out_A_4 c (grid1.coords t) (ms_0 t) (hs_0 t) (ms_1 t) (hs_1 t) (ms_2 t) (hs_2 t) (ms_3 t) (hs_3 t) (ms_4 t) (hs_4 t) scM (Memref.isWhole_whole _) ((hcond0 t).mpr h0) (fun h => h1 ((hcond1 t).mp h)) (iblk V c 0 t) (iblk V c 1 t) (iblk V c 2 t) (iblk V c 3 t), sout_A_0 c (grid1.coords t) (ms_0 t) (hs_0 t) (ms_1 t) (hs_1 t) (ms_2 t) (hs_2 t) (ms_3 t) (hs_3 t) (ms_4 t) (hs_4 t) scM (Memref.isWhole_whole _) ((hcond0 t).mpr h0) (fun h => h1 ((hcond1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt` at a middle point of a run of four: over what the point before left in the accumulator. -/
theorem outsAt_B (c : Dev nD) (t : Fin cfg1.N) (h0 : ¬t.val % 4 = 0) (h1 : ¬t.val % 4 = 3) :
    outsAt V c t.val t.isLt = (out_B_4 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) (fun h => h1 ((hcond1 t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at the last point of a run of four: over what the point before left in the accumulator. -/
theorem outsAt_C (c : Dev nD) (t : Fin cfg1.N) (h0 : ¬t.val % 4 = 0) (h1 : t.val % 4 = 3) :
    outsAt V c t.val t.isLt = (out_C_4 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) scM (Memref.isWhole_whole _) (fun h => h0 ((hcond0 t).mp h)) ((hcond1 t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, point by point -/

/-- The invariant before position `n`: before the first point what the launch hands over (the accumulator at anything);
    afterwards the first kernel's scoped buffers untouched, the accumulator at what the point before left in it, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_scratch0), ((c : Thread nD τ).loc cc0_scratch0) ↦{fullShare} f)
          ∗ owns (c : Thread nD τ) scM fullShare ((outsAt V c (n - 1) (by omega)).2)) ∗ (∃ r, prngReg c r)) := by
  cases n with
  | zero => exact absurd rfl hz
  | succ n => rfl

/-! ## The pipeline's proof data -/

/-- The proof data of the second kernel's pipeline on core `c`: the arrays as the region finds them; after the body at
    point `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-! ## The body obligation, at a generic point -/

/-- What the body is called with at point `t`: the invariant, what the core owes, and each window's current staging
    buffer at what it then holds, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the position's remainder modulo four says which case
    the point is in; the invariant hands the body the accumulator at what the point before left (at anything at the very
    first point) and takes it back at this point's contents, because the case's stores cover it; the output's buffer is
    handed back untouched where the case stores nothing into it, and at the finished slab where it does; the first
    kernel's scoped buffers, the generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_A t ((hcond0 t).mpr h0) (fun h => h1 ((hcond1 t).mp h))) (noFlush_4_A t ((hcond0 t).mpr h0) (fun h => h1 ((hcond1 t).mp h)))]
      rw [outsAt_A V c t h0 h1]
      unfold sout_A_0; (try dsimp only)
      by_cases hz : t.val = 0
      · rw [PhiS_castSucc V c t, PhiS_zero V c _ _ hz, PhiA_eq]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_A c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_A c (grid1.coords t) _ _ _ _ _ _ _ _ _ _ _ _ ((hcond0 t).mpr h0) (fun h => h1 ((hcond1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4_C t (fun h => h0 ((hcond0 t).mp h)) ((hcond1 t).mpr h1)], after_4]
      rw [outsAt_C V c t h0 h1]
      unfold out_C_4 sout_C_0; (try dsimp only)
      by_cases hz : t.val = 0
      · exfalso; omega
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_C c (grid1.coords t) _ _ _ _ _ _ _ _ _ _ _ _ (fun h => h0 ((hcond0 t).mp h)) ((hcond1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_C_4 c _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [Dat.leavesExact_idle (dat V c) 4 t (idleAt_4_B t (fun h => h0 ((hcond0 t).mp h)) (fun h => h1 ((hcond1 t).mp h))) (noFlush_4_B t (fun h => h0 ((hcond0 t).mp h)) (fun h => h1 ((hcond1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨R1, R2, R3, R4, R5, HS0⟩, Hg⟩, Ho, ⟨%d0, H0⟩, ⟨%d1, H1⟩, ⟨%d2, H2⟩, ⟨%d3, H3⟩, ⟨%d4, H4⟩⟩
        iapply ((kernelRun_B c (grid1.coords t) _ _ _ _ _ _ _ _ _ _ _ _ (fun h => h0 ((hcond0 t).mp h)) (fun h => h1 ((hcond1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [R1 R2 R3 R4 R5 HS0 Hg]
        · isplitl [R1 R2 R3 R4 R5 HS0]
          · isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's form back: what the accumulator holds is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, HS0⟩, Hg⟩
  isplitl [R1 R2 R3 R4 R5 HS0]
  · isplitl [R1]; · iexact R1
    isplitl [R2]; · iexact R2
    isplitl [R3]; · iexact R3
    isplitl [R4]; · iexact R4
    isplitl [R5]; · iexact R5
    iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.Kernel.R1

end
-- ==== Proof.KRunAll.lean ====
/-
  The whole program as three segments — the row-sum kernel, a stretch of host operations, the aggregation kernel — and
  its run: every weakly fair execution terminates, nothing faults, and every unscoped buffer ends at the contents named
  here.

  The buffers' contents at each boundary are a fold from the launch memory: after a kernel its windows' arrays hold
  what its write-backs leave (an input array what it held; the output array block by block what the points wrote) and
  every other buffer what it held; after the host stretch each operation's result.  The frame claim and the value of the
  result are both read off the last valuation.
-/
import proofs.«180980_j15479062135162_2_alg».proof.Proof.KR0Frame
import proofs.«180980_j15479062135162_2_alg».proof.Proof.KR1Frame
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the row-sum kernel's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- After the row-sum kernel: its arrays at what the write-backs leave, every other buffer as entered. -/
def B1 (c : Dev nD) : Valuation τ sig (Elt F) :=
  Pipeline.withArrays spec0 c (B0 m ρ c) fun w => (R0.dat (E0 m ρ) c).arrAt w cfg0.N
theorem B1_arr (c : Dev nD) (w : Fin cfg0.W) :
    B1 m ρ c (Proc.devRef .tc (Pipeline.arrRef spec0 w)) = (R0.dat (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (R0.dat (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)

/-- After the host stretch (the aggregation kernel's entry). -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the aggregation kernel: its arrays at what the write-backs leave, every other buffer as entered. -/
def B3 (c : Dev nD) : Valuation τ sig (Elt F) :=
  Pipeline.withArrays spec1 c (B2 m ρ c) fun w => (R1.dat (E2 m ρ) c).arrAt w cfg1.N
theorem B3_arr (c : Dev nD) (w : Fin cfg1.W) :
    B3 m ρ c (Proc.devRef .tc (Pipeline.arrRef spec1 w)) = (R1.dat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (R1.dat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched -/

/-- Argument 0 ends as launched: no host operation writes it and each kernel only reads it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := B1_of_ne m ρ c main_arg0 (by decide)
    _ = m ((c : Thread nD τ).loc main_arg0) := rfl

/-- Argument 1 ends as launched: no host operation writes it and each kernel only reads it (through an input window). -/
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((R1.dat (E2 m ρ) c).arrAt_in 0 rfl _).trans (R1.A_eq (E2 m ρ) c 0))
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 0).trans (((R0.dat (E0 m ρ) c).arrAt_in 0 rfl _).trans (R0.A_eq (E0 m ρ) c 0))
    _ = m ((c : Thread nD τ).loc main_arg1) := rfl

/-- Argument 2 ends as launched: no host operation writes it and each kernel only reads it. -/
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg2) := B1_of_ne m ρ c main_arg2 (by decide)
    _ = m ((c : Thread nD τ).loc main_arg2) := rfl

/-- Argument 3 ends as launched: no host operation writes it and each kernel only reads it. -/
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg3) := B1_of_ne m ρ c main_arg3 (by decide)
    _ = m ((c : Thread nD τ).loc main_arg3) := rfl

/-! ## The proof data family and the thread state -/

/-- No kernel has a prefetched table. -/
abbrev adm : (p : Fin 2) → (pcfgs (F := F) p).Adm := fun p => (cfgs p).toPCfg_adm
/-- Both kernels' proof data, each at its entry contents. -/
def pdats : (p : Fin 2) → (c : Dev nD) → Dat τ (Elt F) Unit ℕ (UR sig nD τ) ℕ (Pipeline.pin (pcfgs (F := F)) adm p) c
  | ⟨0, _⟩ => fun c => R0.dat (E0 m ρ) c
  | ⟨1, _⟩ => fun c => R1.dat (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B3 m ρ c) ∗ ∃ r, prngReg c r)

/-! ## The kernels as segments -/

-- an entailment stated over the pinned configuration unifies with the printed one only when unification may unfold
-- plain definitions in a metavariable's type
set_option backward.isDefEq.respectTransparency.types false in
/-- Kernel 0 as a segment of the program: entered from every unscoped buffer at the boundary's contents, left at the
    next boundary's. Its arrays are split out of the unscoped buffers on entry and put back at what the write-backs
    leave on exit; the generator register and the scoped buffers go into the kernel's invariant and come back; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (E0 m ρ) c)
    unfold Pipeline.ΦA
    iintro ⟨Hp, -, Hr⟩
    isplitl [Hr]; · iexact Hr
    iexact Hp
  hout c := by
    rw [Pipeline.ownSems0_none]
    refine BIBase.Entails.trans (R0.hout (E0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- an entailment stated over the pinned configuration unifies with the printed one only when unification may unfold
-- plain definitions in a metavariable's type
set_option backward.isDefEq.respectTransparency.types false in
/-- Kernel 1 as a segment of the program: entered from every unscoped buffer at the boundary's contents, left at the
    next boundary's. Its arrays are split out of the unscoped buffers on entry and put back at what the write-backs
    leave on exit; the generator register and the scoped buffers go into the kernel's invariant and come back; nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (E2 m ρ) c)
    unfold Pipeline.ΦA
    iintro ⟨Hp, -, Hr⟩
    isplitl [Hr]; · iexact Hr
    iexact Hp
  hout c := by
    rw [Pipeline.ownSems0_none]
    refine BIBase.Entails.trans (R1.hout (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faults,
    and every unscoped TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.Kernel.Run

end
-- ==== Proof.R0Pieces.lean ====
import proofs.«180980_j15479062135162_2_alg».proof.Proof.R0Frame
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz0 : (![0, 0] : Fin 2 → Nat) = fun _ => 0 := funext fun a => by fin_cases a <;> rfl

/-- At a first-column-block point the accumulator ends at this block's row sums added to the zero column the body has
    just stored: the sum reads back the store made before it. -/
theorem sout_A_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond0 i) (hc1 : ¬cond1 i)
    (x0 : Vec F S1024x2048 .f32) :
    sout_A c i arg2 harg2 arg3 harg3 arg4 harg4 hc0 hc1 x0 = k0_pay2 (k0_pay1 (F := F)) x0 := by
  unfold sout_A
  rw [View.read_writes_eq_canon _ _ _ (scover_A c i arg2 harg2 arg3 harg3 arg4 harg4 hc0 hc1 x0)]
  unfold kernelRun_A
  dsimp only
  sl_unfold_words
  rw [View.canon_cons_unit_zero (S := S1024x1) hz0, View.readCov_unit_zero (S := S1024x1) _ hz0]
  simp only [View.readAt_eq_ld, harg2.read_unread, View.ld_unit_zero (S := S1024x2048) hz0]

/-- At a middle-column-block point the accumulator ends at what it held plus this block's row sums. -/
theorem sout_B_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : ¬cond1 i)
    (x0 : Vec F S1024x2048 .f32) (xs0 : Vec F S1024x1 .f32) :
    sout_B c i arg2 harg2 arg3 harg3 arg4 harg4 hc0 hc1 x0 xs0 = k0_pay2 xs0 x0 := by
  unfold sout_B
  rw [View.read_writes_eq_canon _ _ _ (scover_B c i arg2 harg2 arg3 harg3 arg4 harg4 hc0 hc1 x0 xs0)]
  unfold kernelRun_B
  dsimp only
  rw [View.canon_unit_zero hz0]
  simp only [View.readAt_eq_ld, harg2.read_unread, harg4.read_unread, View.ld_unit_zero (S := S1024x2048) hz0, View.ld_unit_zero (S := S1024x1) hz0]

/-- At a last-column-block point the accumulator likewise ends at what it held plus this block's row sums. -/
theorem sout_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) :
    sout_C c i arg2 harg2 arg3 harg3 arg4 harg4 hc0 hc1 x0 xs0 = k0_pay2 xs0 x0 := by
  unfold sout_C
  rw [View.read_writes_eq_canon _ _ _ (scover_C c i arg2 harg2 arg3 harg3 arg4 harg4 hc0 hc1 x0 xs0)]
  unfold kernelRun_C
  dsimp only
  sl_unfold_words
  rw [View.canon_unit_zero hz0]
  simp only [View.readAt_eq_ld, harg2.read_unread, harg4.read_unread, View.ld_unit_zero (S := S1024x2048) hz0, View.ld_unit_zero (S := S1024x1) hz0]

/-- And there the output buffer ends at the reciprocal square root of the finished row sums plus the small constant:
    it reads back the accumulator the body has just stored. -/
theorem out_C_eq (c : Dev nD) (i : grid0.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond0 i) (hc1 : cond1 i)
    (x0 : Vec F S1024x2048 .f32) (xs0 : Vec F S1024x1 .f32) :
    out_C_1 c i arg2 harg2 arg3 harg3 arg4 harg4 hc0 hc1 x0 xs0 = k0_pay3 (k0_pay2 xs0 x0) := by
  unfold out_C_1
  rw [View.read_writes_eq_canon _ _ _ (cover_C_1 c i arg2 harg2 arg3 harg3 arg4 harg4 hc0 hc1 x0 xs0)]
  unfold kernelRun_C
  dsimp only
  sl_unfold_words
  rw [View.canon_unit_zero hz0, View.readCov_unit_zero (S := S1024x1) _ hz0]
  simp only [View.readAt_eq_ld, harg2.read_unread, harg4.read_unread, View.ld_unit_zero (S := S1024x2048) hz0, View.ld_unit_zero (S := S1024x1) hz0]

end Cert.KernelIdeal.R0

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Spec.lean ====
/-
  The function both programs compute, written once, index by index, on the extended reals.

  For a square matrix `adj` the degree of row `i` is the row sum `deg i = ∑ j, adj i j`, and its normalising factor is
  `dinv i = (deg i + ε)^(-1/2)` with `ε` the binary32 number nearest `1e-6`.  The result is the normalised graph
  convolution followed by a linear layer,

      out i o = dinv i * (∑ j, adj i j * xw j o) + b o,      xw j o = ∑ c, (dinv j * x j c) * W o c,

  in the bracketing that scales the features once before the projection and the aggregated rows once after it.
  The other bracketing, `∑ c, (∑ j, (dinv i * adj i j * dinv j) * x j c) * W o c + b o`, is the same number whenever
  every entry is a real number and every `deg i + ε` is positive: then each `dinv i` is a positive real and the two
  differ by distributing real factors over finite sums.
-/
import Idealize.ShloMosaic.PureOps.Ideal
import Idealize.ShloMosaic.Lib.ValueIdx

noncomputable section

open scoped BigOperators

namespace Cert.Spec

open Idealize.ShloMosaic Idealize.ShloMosaic.ValueIdx

/-- The features, `[8192, 128]`. -/
abbrev X : Type := (⟨2, ![8192, 128]⟩ : Shape).Idx → EReal
/-- The adjacency matrix, `[8192, 8192]`. -/
abbrev A : Type := (⟨2, ![8192, 8192]⟩ : Shape).Idx → EReal
/-- The projection's weights, `[128, 128]` (output feature first). -/
abbrev Wt : Type := (⟨2, ![128, 128]⟩ : Shape).Idx → EReal
/-- The bias, `[128]`. -/
abbrev Bv : Type := (⟨1, ![128]⟩ : Shape).Idx → EReal

/-- The regulariser under the square root: the binary32 number nearest `1e-6`. -/
def eps : EReal := Ideal.ofBits .f32 0x358637BD#32

/-- The degree of row `i`: the sum of the row. -/
def deg (adj : A) (i : Fin 8192) : EReal := ∑ j : Fin 8192, adj (ix2 i j)

/-- The normalising factor of row `i`: `(deg i + ε)^(-1/2)`. -/
def dinv (adj : A) (i : Fin 8192) : EReal := Ideal.rsqrt (deg adj i + eps)

/-- The scaled and projected features: `xw j o = ∑ c, (dinv j * x j c) * W o c`. -/
def xw (x : X) (adj : A) (W : Wt) (j : Fin 8192) (o : Fin 128) : EReal :=
  ∑ c : Fin 128, (dinv adj j * x (ix2 j c)) * W (ix2 o c)

/-- The aggregated rows: `agg i o = ∑ j, adj i j * xw j o`. -/
def agg (x : X) (adj : A) (W : Wt) (i : Fin 8192) (o : Fin 128) : EReal :=
  ∑ j : Fin 8192, adj (ix2 i j) * xw x adj W j o

/-- The result at row `i`, output feature `o`. -/
def out (x : X) (adj : A) (W : Wt) (b : Bv) (i : Fin 8192) (o : Fin 128) : EReal :=
  dinv adj i * agg x adj W i o + b (ix1 o)

/-- The result as one array `[8192, 128]`. -/
def G (x : X) (adj : A) (W : Wt) (b : Bv) : X := fun idx => out x adj W b (idx 0) (idx 1)

end Cert.Spec

end
-- ==== Proof.R0Pay.lean ====
/-
  The row-sum kernel's three stored values, read at an entry, on the extended reals.

  With every float an extended real: the column the accumulator is cleared with is zero; the column stored back into the
  accumulator is the accumulator plus the row sums of the adjacency block, entry `r` being `acc r + ∑ l, adj r l`; and the
  output column is the reciprocal square root of the accumulator plus the small constant, `(acc r + ε)^(-1/2)`.
-/
import proofs.«180980_j15479062135162_2_alg».proof.Proof.Gen.KernelIdeal.Skeleton
import proofs.«180980_j15479062135162_2_alg».proof.Proof.LibLayout
import proofs.«180980_j15479062135162_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.R0V

open Cert.KernelIdeal Cert.KernelIdeal.Gen
open Idealize.ShloMosaic Idealize.ShloMosaic.ValueIdx

/-- The column the accumulator is cleared with is zero everywhere. -/
theorem pay1_apply (j : S1024x1.Idx) : k0_pay1 (F := Ideal) j = 0 := by
  unfold k0_pay1
  rw [shapeCast_self]
  exact Ideal.ofBits_zero_f32

/-- The column stored back into the accumulator: the accumulator plus the sum of the adjacency block's row. -/
theorem pay2_apply (v3 : Vec Ideal S1024x1 .f32) (v4 : Vec Ideal S1024x2048 .f32) (r : Fin 1024) :
    k0_pay2 v3 v4 (ix2 r (0 : Fin 1)) = v3 (ix2 r (0 : Fin 1)) + ∑ l : Fin 2048, v4 (ix2 r l) := by
  unfold k0_pay2
  rw [shapeCast_self]
  refine (addf_apply (s := S1024x1) (φ := .f32) v3 _ (ix2 r (0 : Fin 1))).trans ?_
  refine congrArg (v3 (ix2 r (0 : Fin 1)) + ·) ?_
  refine (Cert.Attn.Layout.shapeCast_a_a1_apply (a := 1024) _ shapeCasts_S1024_S1024x1 r (0 : Fin 1)).trans ?_
  exact Cert.Attn.Layout.rowSum_apply (a := 1024) (b := 2048) v4 reduces_S1024x2048_S1024 (.inl rfl) rfl r

/-- The output column: the reciprocal square root of the accumulator plus the small constant. -/
theorem pay3_apply (v14 : Vec Ideal S1024x1 .f32) (r : Fin 1024) :
    k0_pay3 v14 (ix2 r (0 : Fin 1)) = Ideal.rsqrt (v14 (ix2 r (0 : Fin 1)) + Cert.Spec.eps) := by
  unfold k0_pay3 Cert.Spec.eps
  rfl

end Cert.KernelIdeal.R0V

end
-- ==== Proof.LibSumBlocks.lean ====
/-
  A finite sum over consecutive indices cut at a point, and cut into equal blocks with one index left over:
  the sum over `a + b` indices is the sum over the first `a` plus the sum over the last `b`
  (`sum_fin_add`); a sum over `B + B + B + 1` indices (`sum_blocks3_last`), over `B + B + B + B + 1` indices
  (`sum_blocks4_last`) and over `B + B + B` indices (`sum_blocks3`) as the block sums added in order, then the
  last index's term. In any additive commutative monoid, so on the extended reals with no finiteness asked.
-/
import Mathlib.Algebra.BigOperators.Fin

namespace SumBlocks

open Finset

variable {M : Type*} [AddCommMonoid M]

/-- The sum over `a + b` consecutive indices is the sum over the first `a` plus the sum over the last `b`. -/
theorem sum_fin_add (a b n : ℕ) (h : a + b = n) (f : Fin n → M) :
    ∑ k, f k = ∑ k : Fin a, f ⟨k.val, by omega⟩ + ∑ k : Fin b, f ⟨a + k.val, by omega⟩ := by
  subst h
  rw [Fin.sum_univ_add]
  rfl

/-- Three blocks of `B` indices and one last index. -/
theorem sum_blocks3_last (B n : ℕ) (h : B + B + B + 1 = n) (f : Fin n → M) :
    ∑ k, f k = ((∑ k : Fin B, f ⟨k.val, by omega⟩ + ∑ k : Fin B, f ⟨B + k.val, by omega⟩)
        + ∑ k : Fin B, f ⟨B + B + k.val, by omega⟩) + f ⟨B + B + B, by omega⟩ := by
  rw [sum_fin_add (B + B + B) 1 n h f, sum_fin_add (B + B) B (B + B + B) rfl, sum_fin_add B B (B + B) rfl,
    Fin.sum_univ_one]
  rfl

/-- Four blocks of `B` indices and one last index. -/
theorem sum_blocks4_last (B n : ℕ) (h : B + B + B + B + 1 = n) (f : Fin n → M) :
    ∑ k, f k = (((∑ k : Fin B, f ⟨k.val, by omega⟩ + ∑ k : Fin B, f ⟨B + k.val, by omega⟩)
        + ∑ k : Fin B, f ⟨B + B + k.val, by omega⟩) + ∑ k : Fin B, f ⟨B + B + B + k.val, by omega⟩)
        + f ⟨B + B + B + B, by omega⟩ := by
  rw [sum_fin_add (B + B + B + B) 1 n h f, sum_fin_add (B + B + B) B (B + B + B + B) rfl,
    sum_fin_add (B + B) B (B + B + B) rfl, sum_fin_add B B (B + B) rfl, Fin.sum_univ_one]
  rfl

/-- Three blocks of `B` indices. -/
theorem sum_blocks3 (B n : ℕ) (h : B + B + B = n) (f : Fin n → M) :
    ∑ k, f k = (∑ k : Fin B, f ⟨k.val, by omega⟩ + ∑ k : Fin B, f ⟨B + k.val, by omega⟩)
        + ∑ k : Fin B, f ⟨B + B + k.val, by omega⟩ := by
  rw [sum_fin_add (B + B) B n h f, sum_fin_add B B (B + B) rfl]

end SumBlocks
-- ==== Proof.R0Value.lean ====
/-
  The row-sum kernel's result array, on the extended reals.

  The kernel visits 8 row blocks by 4 column blocks; at point `t` it is on row block `t / 4` and column block `t % 4`.
  After the point the accumulator's entry `(r, 0)` is the sum, over the column blocks `k ≤ t % 4` visited so far and
  over the 2048 columns `l` of each, of `adj (1024 (t/4) + r) (2048 k + l)` — by induction on the point, each step
  adding one block's row sums to what the point before left (to zero at the first block).  At `t % 4 = 3` the four
  blocks make up the whole row, in order, so the entry is the degree `∑ j, adj i j` of row `i = 1024 (t/4) + r` (only
  the associativity of the sum is used: no entry need be finite), and the block written back there holds
  `(deg i + ε)^(-1/2)`.  The blocks written back tile the column `[8192, 1]`: row `i` is written by point
  `4 (i / 1024) + 3`.
-/
import proofs.«180980_j15479062135162_2_alg».proof.Proof.R0Pieces
import proofs.«180980_j15479062135162_2_alg».proof.Proof.R0Pay
import proofs.«180980_j15479062135162_2_alg».proof.Proof.LibSumBlocks
import Idealize.ShloMosaic.Lib.Pipeline.Value

set_option maxRecDepth 16384

noncomputable section

open scoped BigOperators

namespace Cert.KernelIdeal.R0V

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the kernel is entered
variable (V : (c : Dev nD) → (b : Ref sig .tc) → Buf (Elt Ideal) ((c : Thread nD τ).loc b))

/-- The adjacency matrix the kernel finds on entry, as an array of extended reals. -/
abbrev adj (c : Dev nD) : Cert.Spec.A := V c main_arg1
/-- The input window's block at point `t`, as an array of extended reals. -/
abbrev blk0 (c : Dev nD) (t : Fin cfg0.N) : (⟨2, ![1024, 2048]⟩ : Shape).Idx → EReal := R0.iblk V c 0 t

/-! ## Each window's block as entries of its array -/

/-- Which block of its array each window is on at point `t`: row block `t / 4`, and for the input column block `t % 4`. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- The adjacency block at point `t`, entry `(r, l)`: row `1024 (t/4) + r`, column `2048 (t%4) + l` of the matrix. -/
theorem iblk0_apply (c : Dev nD) (t : Fin cfg0.N) (r : Fin 1024) (l : Fin 2048) (i : Fin 8192) (j : Fin 8192)
    (hi : i.val = 1024 * (t.val / 4) + r.val) (hj : j.val = 2048 * (t.val % 4) + l.val) :
    R0.iblk V c 0 t (ix2 r l) = V c main_arg1 (ix2 i j) := by
  obtain ⟨e0, e1, -⟩ := idx_facts t
  unfold R0.iblk
  rw [View.read_apply]
  show V c main_arg1 (((cfg0.win 0).blk t).view.emb (ix2 r l)) = V c main_arg1 (ix2 i j)
  refine congrArg (V c main_arg1) ?_
  funext a; apply Fin.ext
  match a with
  | ⟨0, _⟩ => show win0_0.index t (0 : Fin 2) * 1024 + 1 * r.val = i.val; rw [e0, hi]; omega
  | ⟨1, _⟩ => show win0_0.index t (1 : Fin 2) * 2048 + 1 * l.val = j.val; rw [e1, hj]; omega

/-! ## The accumulator after each point -/

/-- The adjacency matrix at natural-number coordinates (zero outside the matrix). -/
def adjN (c : Dev nD) (i j : ℕ) : EReal :=
  if h : i < 8192 ∧ j < 8192 then V c main_arg1 (ix2 (⟨i, h.1⟩ : Fin 8192) (⟨j, h.2⟩ : Fin 8192)) else 0

theorem adjN_eq (c : Dev nD) (i j : Fin 8192) (a b : ℕ) (ha : a = i.val) (hb : b = j.val) :
    adjN V c a b = V c main_arg1 (ix2 i j) := by
  subst ha; subst hb; unfold adjN; rw [dif_pos ⟨i.isLt, j.isLt⟩]

/-- The sum of row `i` of the adjacency matrix over its first `n` column blocks. -/
def part (c : Dev nD) (i : ℕ) (n : ℕ) : EReal :=
  ∑ k ∈ Finset.range n, ∑ l : Fin 2048, adjN V c i (2048 * k + l.val)

/-- One block's row sum at point `t`, row `r`, is the summand of `part` at column block `t % 4`. -/
theorem block_eq (c : Dev nD) (t : Fin cfg0.N) (r : Fin 1024) :
    ∑ l : Fin 2048, blk0 V c t (ix2 r l)
      = ∑ l : Fin 2048, adjN V c (1024 * (t.val / 4) + r.val) (2048 * (t.val % 4) + l.val) := by
  have hN : t.val < 32 := lt_of_lt_of_eq t.isLt (show cfg0.N = 32 from N_0)
  refine Finset.sum_congr rfl fun l _ => ?_
  have hl : l.val < 2048 := l.isLt
  have hr : r.val < 1024 := r.isLt
  have hi : 1024 * (t.val / 4) + r.val < 8192 := by omega
  have hj : 2048 * (t.val % 4) + l.val < 8192 := by omega
  exact (iblk0_apply V c t r l ⟨_, hi⟩ ⟨_, hj⟩ rfl rfl).trans (adjN_eq V c ⟨_, hi⟩ ⟨_, hj⟩ _ _ rfl rfl).symm

/-- THE ACCUMULATOR after point `n`: the row sums of the column blocks visited so far in this row block. -/
theorem acc_eq (c : Dev nD) : ∀ (n : ℕ) (hn : n < cfg0.N) (r : Fin 1024),
    (R0.outsAt V c n hn).2 (ix2 r (0 : Fin 1)) = part V c (1024 * (n / 4) + r.val) (n % 4 + 1)
  | 0, hn, r => by
    rw [R0.outsAt_A V c ⟨0, hn⟩ rfl (by show ¬0 % 4 = 3; decide)]
    dsimp only
    rw [R0.sout_A_eq, pay2_apply, pay1_apply, zero_add, block_eq]
    unfold part
    rw [Finset.sum_range_one]
    rfl
  | n + 1, hn, r => by
    have hN : n + 1 < 32 := lt_of_lt_of_eq hn (show cfg0.N = 32 from N_0)
    by_cases h0 : (n + 1) % 4 = 0
    · have h1 : ¬(n + 1) % 4 = 3 := by omega
      rw [R0.outsAt_A V c ⟨n + 1, hn⟩ h0 h1]
      dsimp only
      rw [R0.sout_A_eq, pay2_apply, pay1_apply, zero_add, block_eq]
      unfold part
      rw [h0, Finset.sum_range_one]
    · have hq : n / 4 = (n + 1) / 4 := by omega
      have hm : n % 4 + 1 = (n + 1) % 4 := by omega
      have ih := acc_eq c n (Nat.lt_of_succ_lt hn) r
      have step : (R0.outsAt V c n (Nat.lt_of_succ_lt hn)).2 (ix2 r (0 : Fin 1))
            + ∑ l : Fin 2048, blk0 V c ⟨n + 1, hn⟩ (ix2 r l)
          = part V c (1024 * ((n + 1) / 4) + r.val) ((n + 1) % 4 + 1) := by
        rw [ih, block_eq, hq, hm]
        unfold part
        rw [Finset.sum_range_succ]
      by_cases h1 : (n + 1) % 4 = 3
      · rw [R0.outsAt_C V c ⟨n + 1, hn⟩ h0 h1]
        dsimp only
        rw [R0.sout_C_eq, pay2_apply]
        exact step
      · rw [R0.outsAt_B V c ⟨n + 1, hn⟩ h0 h1]
        dsimp only
        rw [R0.sout_B_eq, pay2_apply]
        exact step

/-- Four column blocks make up the whole row: the degree. -/
theorem part_four (c : Dev nD) (i : Fin 8192) : part V c i.val 4 = Cert.Spec.deg (adj V c) i := by
  have e : ∀ j : Fin 8192, adj V c (ix2 i j) = adjN V c i.val j.val :=
    fun j => (adjN_eq V c i j _ _ rfl rfl).symm
  unfold Cert.Spec.deg
  rw [Finset.sum_congr rfl fun j _ => e j]
  rw [SumBlocks.sum_fin_add 6144 2048 8192 rfl, SumBlocks.sum_fin_add 4096 2048 6144 rfl, SumBlocks.sum_fin_add 2048 2048 4096 rfl]
  unfold part
  rw [Finset.sum_range_succ, Finset.sum_range_succ, Finset.sum_range_succ, Finset.sum_range_one]
  simp only [Nat.mul_zero, Nat.zero_add, Nat.mul_one]

/-! ## The result array -/

/-- The column the kernel leaves: `(deg i + ε)^(-1/2)` at row `i`. -/
def G (c : Dev nD) : Buf (Elt Ideal) ((c : Thread nD τ).loc main_v0) := fun idx =>
  Cert.Spec.dinv (V c main_arg1) (idx 0 : Fin 8192)

/-- What a point of the last column block writes back is its block of `G`. -/
theorem flushed_eq (c : Dev nD) (t : Fin cfg0.N) (hf : (cfg0.win 1).flush t = true) :
    (R0.dat V c).flushed 1 t = ((cfg0.win 1).blk t).view.read (Elt Ideal) (G V c) := by
  have hN : t.val < 32 := lt_of_lt_of_eq t.isLt (show cfg0.N = 32 from N_0)
  have h1 : t.val % 4 = 3 := (flush0_1 t).mp hf
  have h0 : ¬t.val % 4 = 0 := by omega
  obtain ⟨-, -, e0, e1⟩ := idx_facts t
  show (cfg0.win 1).cut (grid0.coords t) ((R0.dat V c).after 1 t) = _
  rw [R0.after_1, R0.outsAt_C V c t h0 h1]
  dsimp only
  rw [R0.out_C_eq]
  funext y
  obtain ⟨r, u, rfl⟩ : ∃ (r : Fin 1024) (u : Fin 1), y = ix2 r u := ⟨y 0, y 1, eq_ix2 y⟩
  obtain rfl : u = 0 := Subsingleton.elim _ _
  rw [View.read_apply]
  have hr : r.val < 1024 := r.isLt
  have hi : 1024 * (t.val / 4) + r.val < 8192 := by omega
  have hemb : ((cfg0.win 1).blk t).view.emb (ix2 r (0 : Fin 1)) = ix2 (⟨1024 * (t.val / 4) + r.val, hi⟩ : Fin 8192) (0 : Fin 1) := by
    funext a; apply Fin.ext
    match a with
    | ⟨0, _⟩ => show win0_1.index t (0 : Fin 2) * 1024 + 1 * r.val = 1024 * (t.val / 4) + r.val; rw [e0]; omega
    | ⟨1, _⟩ => show win0_1.index t (1 : Fin 2) * 1 + 1 * 0 = 0; rw [e1]
  rw [hemb]
  show k0_pay3 _ (ix2 r (0 : Fin 1)) = _
  rw [pay3_apply, pay2_apply]
  have hprev : (R0.outsAt V c (t.val - 1) (Nat.lt_of_le_of_lt (Nat.sub_le _ _) t.isLt)).2 (ix2 r (0 : Fin 1))
        + ∑ l : Fin 2048, blk0 V c t (ix2 r l)
      = Cert.Spec.deg (adj V c) (⟨1024 * (t.val / 4) + r.val, hi⟩ : Fin 8192) := by
    rw [acc_eq V c (t.val - 1) _ r, block_eq, ← part_four V c ⟨_, hi⟩]
    have hq : (t.val - 1) / 4 = t.val / 4 := by omega
    have hm : (t.val - 1) % 4 + 1 = 3 := by omega
    rw [hq, hm, h1]
    unfold part
    rw [Finset.sum_range_succ (n := 3)]
  rw [hprev]
  rfl

/-- Every entry of the column is in the block some point of a last column block writes back. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have hi0 : (i 0 : ℕ) < 8192 := (i 0).isLt
  have hi1 : (i 1 : ℕ) < 1 := (i 1).isLt
  have hN : cfg0.N = 32 := N_0
  have ht : 4 * ((i 0 : ℕ) / 1024) + 3 < cfg0.N := by rw [hN]; omega
  refine ⟨⟨4 * ((i 0 : ℕ) / 1024) + 3, ht⟩, (flush0_1 _).mpr (by show (4 * ((i 0 : ℕ) / 1024) + 3) % 4 = 3; omega), ?_⟩
  obtain ⟨-, -, e0, e1⟩ := idx_facts ⟨4 * ((i 0 : ℕ) / 1024) + 3, ht⟩
  show i ∈ ((View.whole main_v0).slice (win0_1.rect ⟨4 * ((i 0 : ℕ) / 1024) + 3, ht⟩)).set
  rw [View.set_slice_whole, Rect.mem_set_unit]
  intro a
  match a with
  | ⟨0, _⟩ =>
    show win0_1.index ⟨4 * ((i 0 : ℕ) / 1024) + 3, ht⟩ (0 : Fin 2) * 1024 ≤ (i 0 : ℕ) ∧ (i 0 : ℕ) < win0_1.index ⟨4 * ((i 0 : ℕ) / 1024) + 3, ht⟩ (0 : Fin 2) * 1024 + 1024
    rw [e0]; show (4 * ((i 0 : ℕ) / 1024) + 3) / 4 * 1024 ≤ (i 0 : ℕ) ∧ (i 0 : ℕ) < (4 * ((i 0 : ℕ) / 1024) + 3) / 4 * 1024 + 1024; omega
  | ⟨1, _⟩ =>
    show win0_1.index ⟨4 * ((i 0 : ℕ) / 1024) + 3, ht⟩ (1 : Fin 2) * 1 ≤ (i 1 : ℕ) ∧ (i 1 : ℕ) < win0_1.index ⟨4 * ((i 0 : ℕ) / 1024) + 3, ht⟩ (1 : Fin 2) * 1 + 1
    rw [e1]; omega

/-- THE COLUMN OF NORMALISING FACTORS after the kernel. -/
theorem arr_v0 (c : Dev nD) :
    (R0.dat (F := Ideal) V c).arrAt 1 cfg0.N = fun idx => Cert.Spec.dinv (V c main_arg1) (idx 0 : Fin 8192) :=
  (R0.dat V c).arrAt_eq_of_cover 1 (G V c) (flushed_eq V c) (cover c)

end Cert.KernelIdeal.R0V

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.HostValue.lean ====
/-
  The host operations between the two kernels, read back.

  Between the row-sum kernel and the aggregation kernel the program scales and projects the features on the host:
  the column of normalising factors `[8192, 1]` is broadcast along the 128 features and multiplied into `x`, the
  weights are transposed, and the two are contracted over the feature axis, so that entry `(j, o)` of the result is

      ∑ c, (n j * x j c) * W o c

  (the change of format that follows is the identity on the extended reals); and the bias `[128]` is recast as the
  one row `[1, 128]`.  The column of factors and the adjacency matrix are not written.
-/
import proofs.«180980_j15479062135162_2_alg».proof.Proof.Gen.KernelIdeal.Launch
import proofs.«180980_j15479062135162_2_alg».proof.Proof.Spec
import proofs.«180980_j15479062135162_2_alg».proof.Proof.LibMatmulIx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostV

open Cert.KernelIdeal Cert.KernelIdeal.Gen Idealize.ShloMosaic Idealize.ShloMosaic.TcCoe Idealize.SL.Sem
open Idealize.ShloMosaic.StableHlo Idealize.ShloMosaic.ValueIdx

/-! ### The projection's dimension numbers: rows of the left operand against rows of the transposed weights -/

theorem lhs0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The column `[8192, 1]` broadcast along the features reads, at `(j, c)`, the column's entry of row `j`. -/
theorem bcast_col {α : Type} (y : S8192x1.Idx → α) (bc : S8192x1.BroadcastsInDim S8192x128 (![0, 1] : Fin 2 → Fin S8192x128.rank))
    (j : Fin 8192) (c : Fin 128) : broadcastInDim S8192x128 ![0, 1] bc y (ix2 j c) = y (ix2 j (0 : Fin 1)) :=
  broadcastInDim_apply _ bc y (ix2 j c) (ix2 j (0 : Fin 1)) (fun a => match a with
    | ⟨0, _⟩ => by show j.val = if (8192 : Nat) = 1 then 0 else j.val; rw [if_neg (by decide)]
    | ⟨1, _⟩ => by show (0 : Fin 1).val = if (1 : Nat) = 1 then 0 else c.val; rw [if_pos rfl]; rfl)

/-! ### What the stretch leaves -/

/-- The four arrays the stretch reads, under a valuation `W` of the buffers, as arrays of extended reals: the column
    of normalising factors, the features, the weights and the bias. -/
abbrev nW (W : Valuation τ sig (Elt Ideal)) : S8192x1.Idx → EReal := W (Proc.devRef .tc main_v0)
abbrev xW (W : Valuation τ sig (Elt Ideal)) : S8192x128.Idx → EReal := W (Proc.devRef .tc main_arg0)
abbrev wW (W : Valuation τ sig (Elt Ideal)) : S128x128.Idx → EReal := W (Proc.devRef .tc main_arg2)
abbrev bW (W : Valuation τ sig (Elt Ideal)) : S128.Idx → EReal := W (Proc.devRef .tc main_arg3)

/-- The scaled and projected features: entry `(j, o)` is `∑ c, (n j * x j c) * W o c`. -/
theorem v5_eq (W : Valuation τ sig (Elt Ideal)) :
    StableHlo.after (hostOps1 (F := Ideal)) W (Proc.devRef .tc main_v5)
      = fun idx : S8192x128.Idx => ∑ cc : Fin 128, (nW W (ix2 (idx 0) 0) * xW W (ix2 (idx 0) cc)) * wW W (ix2 (idx 1) cc) := by
  after_results
  funext idx
  obtain ⟨j, o, rfl⟩ : ∃ (j : Fin 8192) (o : Fin 128), idx = ix2 j o := ⟨idx 0, idx 1, eq_ix2 idx⟩
  rw [truncf_apply]
  refine (MatmulIx.dotGeneral_ix2 dot_S8192x128_S128x128_S8192x128_1_0_0_1_n_n rfl rfl lhs0 lhs1 rhs0 rhs1 none _ _ j o).trans ?_
  refine Finset.sum_congr rfl fun c _ => ?_
  rw [mulf_apply, bcast_col, transpose_ix2_apply]

/-- The bias as one row: entry `(0, o)` is `b o`. -/
theorem v6_eq (W : Valuation τ sig (Elt Ideal)) :
    StableHlo.after (hostOps1 (F := Ideal)) W (Proc.devRef .tc main_v6)
      = fun idx : S1x128.Idx => bW W (ix1 (idx 1)) := by
  after_results
  funext idx
  obtain ⟨u, o, rfl⟩ : ∃ (u : Fin 1) (o : Fin 128), idx = ix2 u o := ⟨idx 0, idx 1, eq_ix2 idx⟩
  exact shapeCast_a_1a_apply (W (Proc.devRef .tc main_arg3)) shapeCasts_S128_S1x128 u o

/-- The column of normalising factors is not written. -/
theorem v0_kept (W : Valuation τ sig (Elt Ideal)) :
    StableHlo.after (hostOps1 (F := Ideal)) W (Proc.devRef .tc main_v0) = W (Proc.devRef .tc main_v0) := by
  after_results

/-- The adjacency matrix is not written. -/
theorem arg1_kept (W : Valuation τ sig (Elt Ideal)) :
    StableHlo.after (hostOps1 (F := Ideal)) W (Proc.devRef .tc main_arg1) = W (Proc.devRef .tc main_arg1) := by
  after_results

end Cert.KernelIdeal.HostV

end
-- ==== Proof.R1Pieces.lean ====
import proofs.«180980_j15479062135162_2_alg».proof.Proof.R1Frame
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At the first point of a run of four the accumulator ends at this point's product added to the zero block the body
    has just stored: the sum reads back the store made before it. -/
theorem sout_A_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : cond0 i) (hc1 : ¬cond1 i)
    (x0 : Vec F S1024x2048 .f32) (x1 : Vec F S2048x128 .bf16) (x2 : Vec F S1024x1 .f32) (x3 : Vec F S1x128 .f32) :
    sout_A_0 c i arg2 harg2 arg3 harg3 arg4 harg4 arg5 harg5 arg6 harg6 arg7 harg7 hc0 hc1 x0 x1 x2 x3 = k1_pay2 x0 (k1_pay1 (F := F)) x1 := by
  unfold sout_A_0
  rw [View.read_writes_eq_canon _ _ _ (scover_A_0 c i arg2 harg2 arg3 harg3 arg4 harg4 arg5 harg5 arg6 harg6 arg7 harg7 hc0 hc1 x0 x1 x2 x3)]
  unfold kernelRun_A
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x2048) hz, View.ld_unit_zero (S := S2048x128) hz]

/-- At a middle point the accumulator ends at what it held plus this point's product. -/
theorem sout_B_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : ¬cond1 i)
    (x0 : Vec F S1024x2048 .f32) (x1 : Vec F S2048x128 .bf16) (x2 : Vec F S1024x1 .f32) (x3 : Vec F S1x128 .f32) (xs0 : Vec F S1024x128 .f32) :
    sout_B_0 c i arg2 harg2 arg3 harg3 arg4 harg4 arg5 harg5 arg6 harg6 arg7 harg7 hc0 hc1 x0 x1 x2 x3 xs0 = k1_pay2 x0 xs0 x1 := by
  unfold sout_B_0
  rw [View.read_writes_eq_canon _ _ _ (scover_B_0 c i arg2 harg2 arg3 harg3 arg4 harg4 arg5 harg5 arg6 harg6 arg7 harg7 hc0 hc1 x0 x1 x2 x3 xs0)]
  unfold kernelRun_B
  dsimp only
  rw [View.canon_unit_zero hz]
  simp only [View.readAt_eq_ld, harg2.read_unread, harg3.read_unread, harg7.read_unread, View.ld_unit_zero (S := S1024x2048) hz, View.ld_unit_zero (S := S2048x128) hz, View.ld_unit_zero (S := S1024x128) hz]

/-- At the last point of a run of four the accumulator likewise ends at what it held plus this point's product. -/
theorem sout_C_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) :
    sout_C_0 c i arg2 harg2 arg3 harg3 arg4 harg4 arg5 harg5 arg6 harg6 arg7 harg7 hc0 hc1 x0 x1 x2 x3 xs0 = k1_pay2 x0 xs0 x1 := by
  unfold sout_C_0
  rw [View.read_writes_eq_canon _ _ _ (scover_C_0 c i arg2 harg2 arg3 harg3 arg4 harg4 arg5 harg5 arg6 harg6 arg7 harg7 hc0 hc1 x0 x1 x2 x3 xs0)]
  unfold kernelRun_C
  dsimp only
  sl_unfold_words
  rw [View.canon_unit_zero hz]
  simp only [View.readAt_eq_ld, harg2.read_unread, harg3.read_unread, harg7.read_unread, View.ld_unit_zero (S := S1024x2048) hz, View.ld_unit_zero (S := S2048x128) hz, View.ld_unit_zero (S := S1024x128) hz]

/-- And there the output's staging buffer ends at the finished sum scaled row by row by the degree factor, plus the bias:
    the scaling reads back the accumulator the body has just stored. -/
theorem out_C_eq (c : Dev nD) (i : grid1.Coords) (arg2 : Memref sig .tc .vmem S1024x2048 .f32) (harg2 : arg2.IsWhole) (arg3 : Memref sig .tc .vmem S2048x128 .bf16) (harg3 : arg3.IsWhole) (arg4 : Memref sig .tc .vmem S1024x1 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (hc0 : ¬cond0 i) (hc1 : cond1 i)
    (x0 : Vec F S1024x2048 .f32) (x1 : Vec F S2048x128 .bf16) (x2 : Vec F S1024x1 .f32) (x3 : Vec F S1x128 .f32) (xs0 : Vec F S1024x128 .f32) :
    out_C_4 c i arg2 harg2 arg3 harg3 arg4 harg4 arg5 harg5 arg6 harg6 arg7 harg7 hc0 hc1 x0 x1 x2 x3 xs0 = k1_pay3 x2 (k1_pay2 x0 xs0 x1) x3 := by
  unfold out_C_4
  rw [View.read_writes_eq_canon _ _ _ (cover_C_4 c i arg2 harg2 arg3 harg3 arg4 harg4 arg5 harg5 arg6 harg6 arg7 harg7 hc0 hc1 x0 x1 x2 x3 xs0)]
  unfold kernelRun_C
  dsimp only
  sl_unfold_words
  rw [View.canon_unit_zero hz, View.readCov_unit_zero (S := S1024x128) _ hz]
  simp only [View.readAt_eq_ld, harg2.read_unread, harg3.read_unread, harg4.read_unread, harg5.read_unread, harg7.read_unread, View.ld_unit_zero (S := S1024x2048) hz, View.ld_unit_zero (S := S2048x128) hz, View.ld_unit_zero (S := S1024x128) hz, View.ld_unit_zero (S := S1024x1) hz, View.ld_unit_zero (S := S1x128) hz]

end Cert.KernelIdeal.R1

end
-- ==== Proof.R1Pay.lean ====
/-
  The aggregation kernel's three stored values, read at an entry, on the extended reals.

  With every float an extended real and a change of format the identity: the block it clears the accumulator with is
  zero; the block it stores back into the accumulator is the accumulator plus the product of the adjacency block with
  the block of projected features, entry (r, o) being `acc r o + ∑ l, adj r l * xw l o`; and the output block is the
  row's normalising factor times the accumulator plus the bias, `d r * acc r o + b o`.
-/
import proofs.«180980_j15479062135162_2_alg».proof.Proof.Gen.KernelIdeal.Skeleton
import proofs.«180980_j15479062135162_2_alg».proof.Proof.LibLayout
import proofs.«180980_j15479062135162_2_alg».proof.Proof.LibMatmulIx
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R1V

open Cert.KernelIdeal Cert.KernelIdeal.Gen
open Idealize.ShloMosaic Idealize.ShloMosaic.ValueIdx

/-- The block the accumulator is cleared with is zero everywhere. -/
theorem pay1_apply (j : S1024x128.Idx) : k1_pay1 (F := Ideal) j = 0 := by
  unfold k1_pay1
  rw [shapeCast_self]
  exact Ideal.ofBits_zero_f32

/-- The block stored back into the accumulator: the accumulator plus the row of the adjacency block times the column
    of the projected-features block. -/
theorem pay2_apply (v3 : Vec Ideal S1024x2048 .f32) (v5 : Vec Ideal S1024x128 .f32) (v6 : Vec Ideal S2048x128 .bf16)
    (r : Fin 1024) (o : Fin 128) :
    k1_pay2 v3 v5 v6 (ix2 r o) = v5 (ix2 r o) + ∑ l : Fin 2048, v3 (ix2 r l) * v6 (ix2 l o) := by
  unfold k1_pay2
  rw [shapeCast_self, shapeCast_self]
  refine (addf_apply (s := S1024x128) (φ := .f32) v5 _ (ix2 r o)).trans ?_
  refine congrArg (v5 (ix2 r o) + ·) ?_
  exact MatmulIx.matmul_zero_ix2 (a := 1024) (K := 2048) (b := 128) dot_S1024x2048_S2048x128_S1024x128_1_0_0_1_n_n
    (by decide) (by decide) (fun i q => by rfl) (fun i q => by rfl) (fun i q => by rfl) (fun i q => by rfl) none
    (truncf .bf16 v3 bitsLt_bf16_f32) v6 r o

/-- The output block: the row's normalising factor times the accumulator, plus the bias. -/
theorem pay3_apply (v16 : Vec Ideal S1024x1 .f32) (v18 : Vec Ideal S1024x128 .f32) (v21 : Vec Ideal S1x128 .f32)
    (r : Fin 1024) (o : Fin 128) :
    k1_pay3 v16 v18 v21 (ix2 r o) = v16 (ix2 r (0 : Fin 1)) * v18 (ix2 r o) + v21 (ix2 (0 : Fin 1) o) := by
  unfold k1_pay3
  rw [shapeCast_self, shapeCast_self]
  refine (addf_apply (s := S1024x128) (φ := .f32) _ _ (ix2 r o)).trans ?_
  refine congrArg₂ (· + ·) ?_ ?_
  · refine (mulf_apply (s := S1024x128) (φ := .f32) _ v18 (ix2 r o)).trans ?_
    exact congrArg (· * v18 (ix2 r o)) (Cert.Attn.Layout.broadcastTo_a1_ab_apply (a := 1024) (b := 128) v16 broadcasts_S1024x1_S1024x128 r o)
  · exact broadcastTo_1b_ab_apply (a := 1024) (b := 128) v21 broadcasts_S1x128_S1024x128 r o

end Cert.KernelIdeal.R1V

end
-- ==== Proof.R1Value.lean ====
/-
  The aggregation kernel's result array, on the extended reals.

  The kernel visits 8 row blocks by 4 column blocks; at point `t` it is on row block `t / 4` and column block `t % 4`.
  After the point the accumulator's entry `(r, o)` is the sum over the column blocks `k ≤ t % 4` visited so far, and
  over the 2048 columns `l` of each, of `adj (1024 (t/4) + r) (2048 k + l) * xw (2048 k + l) o` — by induction on the
  point, each step adding one block's product.  At `t % 4 = 3` the four blocks make up the whole row, so the entry is
  `∑ j, adj i j * xw j o`, and the block written back there is `d i * (∑ j, adj i j * xw j o) + b o`.  The blocks written
  back tile the result array: row `i` is written by point `4 (i / 1024) + 3`.
-/
import proofs.«180980_j15479062135162_2_alg».proof.Proof.R1Pieces
import proofs.«180980_j15479062135162_2_alg».proof.Proof.R1Pay
import proofs.«180980_j15479062135162_2_alg».proof.Proof.LibSumBlocks
import Idealize.ShloMosaic.Lib.Pipeline.Value

set_option maxRecDepth 16384

noncomputable section

open scoped BigOperators

namespace Cert.KernelIdeal.R1V

open Cert.KernelIdeal Cert.KernelIdeal.Gen
open Idealize.ShloMosaic Idealize.ShloMosaic.TcCoe Idealize.ShloMosaic.ValueIdx Idealize.SL.Sem
open Idealize.ShloMosaic.Pipeline (Dat)

-- the contents of the TensorCore's buffers when the kernel is entered
variable (V : (c : Dev nD) → (b : Ref sig .tc) → Buf (Elt Ideal) ((c : Thread nD τ).loc b))

/-! ## The four arrays the kernel reads, as functions into the extended reals -/

/-- The adjacency matrix. -/
abbrev adjA (c : Dev nD) : S8192x8192.Idx → EReal := V c main_arg1
/-- The projected features. -/
abbrev xwA (c : Dev nD) : S8192x128.Idx → EReal := V c main_v5
/-- The column of normalising factors. -/
abbrev dA (c : Dev nD) : S8192x1.Idx → EReal := V c main_v0
/-- The bias row. -/
abbrev bA (c : Dev nD) : S1x128.Idx → EReal := V c main_v6

/-- The adjacency block, the projected-features block, the normalising-factor block and the bias block at point `t`. -/
abbrev blk0 (c : Dev nD) (t : Fin cfg1.N) : S1024x2048.Idx → EReal := R1.iblk V c 0 t
abbrev blk1 (c : Dev nD) (t : Fin cfg1.N) : S2048x128.Idx → EReal := R1.iblk V c 1 t
abbrev blk2 (c : Dev nD) (t : Fin cfg1.N) : S1024x1.Idx → EReal := R1.iblk V c 2 t
abbrev blk3 (c : Dev nD) (t : Fin cfg1.N) : S1x128.Idx → EReal := R1.iblk V c 3 t

/-! ## Each window's block as entries of its array -/

/-- Which block of its array each window is on at point `t`: row block `t / 4`, column block `t % 4`. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The adjacency block at point `t`, entry `(r, l)`: row `1024 (t/4) + r`, column `2048 (t%4) + l` of the matrix. -/
theorem iblk0_apply (c : Dev nD) (t : Fin cfg1.N) (r : Fin 1024) (l : Fin 2048) (i : Fin 8192) (j : Fin 8192)
    (hi : i.val = 1024 * (t.val / 4) + r.val) (hj : j.val = 2048 * (t.val % 4) + l.val) :
    R1.iblk V c 0 t (ix2 r l) = adjA V c (ix2 i j) := by
  obtain ⟨e0, e1, -⟩ := idx_facts t
  unfold R1.iblk
  rw [View.read_apply]
  show adjA V c (((cfg1.win 0).blk t).view.emb (ix2 r l)) = adjA V c (ix2 i j)
  refine congrArg (adjA V c) ?_
  funext a; apply Fin.ext
  match a with
  | ⟨0, _⟩ => show win1_0.index t (0 : Fin 2) * 1024 + 1 * r.val = i.val; rw [e0, hi]; omega
  | ⟨1, _⟩ => show win1_0.index t (1 : Fin 2) * 2048 + 1 * l.val = j.val; rw [e1, hj]; omega

/-- The projected-features block at point `t`, entry `(l, o)`: row `2048 (t%4) + l` of the array. -/
theorem iblk1_apply (c : Dev nD) (t : Fin cfg1.N) (l : Fin 2048) (o : Fin 128) (j : Fin 8192)
    (hj : j.val = 2048 * (t.val % 4) + l.val) :
    R1.iblk V c 1 t (ix2 l o) = xwA V c (ix2 j o) := by
  obtain ⟨-, -, e0, e1, -⟩ := idx_facts t
  unfold R1.iblk
  rw [View.read_apply]
  show xwA V c (((cfg1.win 1).blk t).view.emb (ix2 l o)) = xwA V c (ix2 j o)
  refine congrArg (xwA V c) ?_
  funext a; apply Fin.ext
  match a with
  | ⟨0, _⟩ => show win1_1.index t (0 : Fin 2) * 2048 + 1 * l.val = j.val; rw [e0, hj]; omega
  | ⟨1, _⟩ => show win1_1.index t (1 : Fin 2) * 128 + 1 * o.val = o.val; rw [e1]; omega

/-- The block of normalising factors at point `t`, entry `(r, 0)`: row `1024 (t/4) + r` of the column. -/
theorem iblk2_apply (c : Dev nD) (t : Fin cfg1.N) (r : Fin 1024) (i : Fin 8192)
    (hi : i.val = 1024 * (t.val / 4) + r.val) :
    R1.iblk V c 2 t (ix2 r (0 : Fin 1)) = dA V c (ix2 i (0 : Fin 1)) := by
  obtain ⟨-, -, -, -, e0, e1, -⟩ := idx_facts t
  unfold R1.iblk
  rw [View.read_apply]
  show dA V c (((cfg1.win 2).blk t).view.emb (ix2 r (0 : Fin 1))) = dA V c (ix2 i (0 : Fin 1))
  refine congrArg (dA V c) ?_
  funext a; apply Fin.ext
  match a with
  | ⟨0, _⟩ => show win1_2.index t (0 : Fin 2) * 1024 + 1 * r.val = i.val; rw [e0, hi]; omega
  | ⟨1, _⟩ => show win1_2.index t (1 : Fin 2) * 1 + 1 * 0 = 0; rw [e1]

/-- The bias block at any point is the whole bias row. -/
theorem iblk3_apply (c : Dev nD) (t : Fin cfg1.N) (o : Fin 128) :
    R1.iblk V c 3 t (ix2 (0 : Fin 1) o) = bA V c (ix2 (0 : Fin 1) o) := by
  obtain ⟨-, -, -, -, -, -, e0, e1, -⟩ := idx_facts t
  unfold R1.iblk
  rw [View.read_apply]
  show bA V c (((cfg1.win 3).blk t).view.emb (ix2 (0 : Fin 1) o)) = bA V c (ix2 (0 : Fin 1) o)
  refine congrArg (bA V c) ?_
  funext a; apply Fin.ext
  match a with
  | ⟨0, _⟩ => show win1_3.index t (0 : Fin 2) * 1 + 1 * 0 = 0; rw [e0]
  | ⟨1, _⟩ => show win1_3.index t (1 : Fin 2) * 128 + 1 * o.val = o.val; rw [e1]; omega

/-! ## The accumulator after each point -/

/-- The adjacency matrix at natural-number coordinates (zero outside the matrix). -/
def adjN (c : Dev nD) (i j : ℕ) : EReal :=
  if h : i < 8192 ∧ j < 8192 then adjA V c (ix2 (⟨i, h.1⟩ : Fin 8192) (⟨j, h.2⟩ : Fin 8192)) else 0
/-- The projected features at natural-number coordinates (zero outside the array). -/
def xwN (c : Dev nD) (j : ℕ) (o : Fin 128) : EReal :=
  if h : j < 8192 then xwA V c (ix2 (⟨j, h⟩ : Fin 8192) o) else 0

theorem adjN_eq (c : Dev nD) (i j : Fin 8192) (a b : ℕ) (ha : a = i.val) (hb : b = j.val) :
    adjN V c a b = adjA V c (ix2 i j) := by
  subst ha; subst hb; unfold adjN; rw [dif_pos ⟨i.isLt, j.isLt⟩]
theorem xwN_eq (c : Dev nD) (j : Fin 8192) (o : Fin 128) (b : ℕ) (hb : b = j.val) :
    xwN V c b o = xwA V c (ix2 j o) := by
  subst hb; unfold xwN; rw [dif_pos j.isLt]

/-- Row `i` of the adjacency matrix against column `o` of the projected features, over the first `n` column blocks. -/
def part (c : Dev nD) (i : ℕ) (n : ℕ) (o : Fin 128) : EReal :=
  ∑ k ∈ Finset.range n, ∑ l : Fin 2048, adjN V c i (2048 * k + l.val) * xwN V c (2048 * k + l.val) o

/-- One block's product at point `t`, entry `(r, o)`, is the summand of `part` at column block `t % 4`. -/
theorem block_eq (c : Dev nD) (t : Fin cfg1.N) (r : Fin 1024) (o : Fin 128) :
    ∑ l : Fin 2048, blk0 V c t (ix2 r l) * blk1 V c t (ix2 l o)
      = ∑ l : Fin 2048, adjN V c (1024 * (t.val / 4) + r.val) (2048 * (t.val % 4) + l.val) * xwN V c (2048 * (t.val % 4) + l.val) o := by
  have hN : t.val < 32 := lt_of_lt_of_eq t.isLt (show cfg1.N = 32 from N_1)
  refine Finset.sum_congr rfl fun l _ => ?_
  have hl : l.val < 2048 := l.isLt
  have hr : r.val < 1024 := r.isLt
  have hi : 1024 * (t.val / 4) + r.val < 8192 := by omega
  have hj : 2048 * (t.val % 4) + l.val < 8192 := by omega
  refine congrArg₂ (· * ·) ?_ ?_
  · exact (iblk0_apply V c t r l ⟨_, hi⟩ ⟨_, hj⟩ rfl rfl).trans (adjN_eq V c ⟨_, hi⟩ ⟨_, hj⟩ _ _ rfl rfl).symm
  · exact (iblk1_apply V c t l o ⟨_, hj⟩ rfl).trans (xwN_eq V c ⟨_, hj⟩ o _ rfl).symm

/-- THE ACCUMULATOR after point `n`: the products of the column blocks visited so far in this row block. -/
theorem acc_eq (c : Dev nD) : ∀ (n : ℕ) (hn : n < cfg1.N) (r : Fin 1024) (o : Fin 128),
    (R1.outsAt V c n hn).2 (ix2 r o) = part V c (1024 * (n / 4) + r.val) (n % 4 + 1) o
  | 0, hn, r, o => by
    rw [R1.outsAt_A V c ⟨0, hn⟩ rfl (by decide : ¬ 0 % 4 = 3)]
    dsimp only
    rw [R1.sout_A_eq]
    refine (pay2_apply _ _ _ r o).trans ?_
    rw [pay1_apply, zero_add]
    refine (block_eq V c ⟨0, hn⟩ r o).trans ?_
    unfold part
    rw [Finset.sum_range_one]
    rfl
  | n + 1, hn, r, o => by
    have hN : n + 1 < 32 := lt_of_lt_of_eq hn (show cfg1.N = 32 from N_1)
    by_cases h0 : (n + 1) % 4 = 0
    · have h1 : ¬(n + 1) % 4 = 3 := by omega
      rw [R1.outsAt_A V c ⟨n + 1, hn⟩ h0 h1]
      dsimp only
      rw [R1.sout_A_eq]
      refine (pay2_apply _ _ _ r o).trans ?_
      rw [pay1_apply, zero_add]
      refine (block_eq V c ⟨n + 1, hn⟩ r o).trans ?_
      dsimp only
      unfold part
      rw [h0, Finset.sum_range_one]
    · have hq : n / 4 = (n + 1) / 4 := by omega
      have hm : n % 4 + 1 = (n + 1) % 4 := by omega
      have ih := acc_eq c n (Nat.lt_of_succ_lt hn) r o
      have step : (R1.outsAt V c n (Nat.lt_of_succ_lt hn)).2 (ix2 r o)
            + ∑ l : Fin 2048, blk0 V c ⟨n + 1, hn⟩ (ix2 r l) * blk1 V c ⟨n + 1, hn⟩ (ix2 l o)
          = part V c (1024 * ((n + 1) / 4) + r.val) ((n + 1) % 4 + 1) o := by
        rw [ih, block_eq V c ⟨n + 1, hn⟩ r o]
        dsimp only
        rw [hq, hm]
        unfold part
        rw [Finset.sum_range_succ]
      by_cases h1 : (n + 1) % 4 = 3
      · rw [R1.outsAt_C V c ⟨n + 1, hn⟩ h0 h1]
        dsimp only
        rw [R1.sout_C_eq]
        exact (pay2_apply _ _ _ r o).trans step
      · rw [R1.outsAt_B V c ⟨n + 1, hn⟩ h0 h1]
        dsimp only
        rw [R1.sout_B_eq]
        exact (pay2_apply _ _ _ r o).trans step

/-- Four column blocks make up the whole row. -/
theorem part_four (c : Dev nD) (i : Fin 8192) (o : Fin 128) :
    part V c i.val 4 o = ∑ j : Fin 8192, adjA V c (ix2 i j) * xwA V c (ix2 j o) := by
  have e : ∀ j : Fin 8192, adjA V c (ix2 i j) * xwA V c (ix2 j o) = adjN V c i.val j.val * xwN V c j.val o :=
    fun j => by rw [adjN_eq V c i j _ _ rfl rfl, xwN_eq V c j o _ rfl]
  rw [Finset.sum_congr rfl fun j _ => e j]
  rw [SumBlocks.sum_fin_add 6144 2048 8192 rfl, SumBlocks.sum_fin_add 4096 2048 6144 rfl, SumBlocks.sum_fin_add 2048 2048 4096 rfl]
  unfold part
  rw [Finset.sum_range_succ, Finset.sum_range_succ, Finset.sum_range_succ, Finset.sum_range_one]
  simp only [Nat.mul_zero, Nat.zero_add, Nat.mul_one]
  try rfl

/-! ## The result array -/

/-- The array the kernel leaves: `d i * (∑ j, adj i j * xw j o) + b o`. -/
def G (c : Dev nD) : Buf (Elt Ideal) ((c : Thread nD τ).loc main_v7) := fun idx =>
  dA V c (ix2 (idx 0 : Fin 8192) (0 : Fin 1)) * (∑ j : Fin 8192, adjA V c (ix2 (idx 0 : Fin 8192) j) * xwA V c (ix2 j (idx 1 : Fin 128)))
    + bA V c (ix2 (0 : Fin 1) (idx 1 : Fin 128))

/-- What a point of the last column block writes back is its block of `G`. -/
theorem flushed_eq (c : Dev nD) (t : Fin cfg1.N) (hf : (cfg1.win 4).flush t = true) :
    (R1.dat V c).flushed 4 t = ((cfg1.win 4).blk t).view.read (Elt Ideal) (G V c) := by
  have hN : t.val < 32 := lt_of_lt_of_eq t.isLt (show cfg1.N = 32 from N_1)
  have h1 : t.val % 4 = 3 := (flush1_4 t).mp hf
  have h0 : ¬t.val % 4 = 0 := by omega
  obtain ⟨-, -, -, -, -, -, -, -, e0, e1⟩ := idx_facts t
  show (cfg1.win 4).cut (grid1.coords t) ((R1.dat V c).after 4 t) = _
  rw [R1.after_4, R1.outsAt_C V c t h0 h1]
  dsimp only
  rw [R1.out_C_eq]
  funext y
  obtain ⟨r, o, rfl⟩ : ∃ (r : Fin 1024) (o : Fin 128), y = ix2 r o := ⟨y 0, y 1, eq_ix2 y⟩
  rw [View.read_apply]
  have hr : r.val < 1024 := r.isLt
  have hi : 1024 * (t.val / 4) + r.val < 8192 := by omega
  have hemb : ((cfg1.win 4).blk t).view.emb (ix2 r o) = ix2 (⟨1024 * (t.val / 4) + r.val, hi⟩ : Fin 8192) o := by
    funext a; apply Fin.ext
    match a with
    | ⟨0, _⟩ => show win1_4.index t (0 : Fin 2) * 1024 + 1 * r.val = 1024 * (t.val / 4) + r.val; rw [e0]; omega
    | ⟨1, _⟩ => show win1_4.index t (1 : Fin 2) * 128 + 1 * o.val = o.val; rw [e1]; omega
  rw [hemb]
  show k1_pay3 _ _ _ (ix2 r o) = _
  refine (pay3_apply _ _ _ r o).trans ?_
  rw [pay2_apply]
  have hprev : (R1.outsAt V c (t.val - 1) (Nat.lt_of_le_of_lt (Nat.sub_le _ _) t.isLt)).2 (ix2 r o)
        + ∑ l : Fin 2048, blk0 V c t (ix2 r l) * blk1 V c t (ix2 l o)
      = ∑ j : Fin 8192, adjA V c (ix2 (⟨1024 * (t.val / 4) + r.val, hi⟩ : Fin 8192) j) * xwA V c (ix2 j o) := by
    rw [acc_eq V c (t.val - 1) _ r o, block_eq V c t r o, ← part_four V c ⟨_, hi⟩ o]
    dsimp only
    have hq : (t.val - 1) / 4 = t.val / 4 := by omega
    have hm : (t.val - 1) % 4 + 1 = 3 := by omega
    rw [hq, hm, h1]
    unfold part
    rw [Finset.sum_range_succ (n := 3)]
  rw [hprev, iblk2_apply V c t r ⟨_, hi⟩ rfl, iblk3_apply V c t o]
  rfl

/-- Every entry of the result array is in the block some point of a last column block writes back. -/
theorem cover (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0 : ℕ) < 8192 := (i 0).isLt
  have hi1 : (i 1 : ℕ) < 128 := (i 1).isLt
  have hN : cfg1.N = 32 := N_1
  have ht : 4 * ((i 0 : ℕ) / 1024) + 3 < cfg1.N := by rw [hN]; omega
  refine ⟨⟨4 * ((i 0 : ℕ) / 1024) + 3, ht⟩, (flush1_4 _).mpr (by show (4 * ((i 0 : ℕ) / 1024) + 3) % 4 = 3; omega), ?_⟩
  obtain ⟨-, -, -, -, -, -, -, -, e0, e1⟩ := idx_facts ⟨4 * ((i 0 : ℕ) / 1024) + 3, ht⟩
  show i ∈ ((View.whole main_v7).slice (win1_4.rect ⟨4 * ((i 0 : ℕ) / 1024) + 3, ht⟩)).set
  rw [View.set_slice_whole, Rect.mem_set_unit]
  intro a
  match a with
  | ⟨0, _⟩ =>
    show win1_4.index ⟨4 * ((i 0 : ℕ) / 1024) + 3, ht⟩ (0 : Fin 2) * 1024 ≤ (i 0 : ℕ) ∧ (i 0 : ℕ) < win1_4.index ⟨4 * ((i 0 : ℕ) / 1024) + 3, ht⟩ (0 : Fin 2) * 1024 + 1024
    rw [e0]; show (4 * ((i 0 : ℕ) / 1024) + 3) / 4 * 1024 ≤ (i 0 : ℕ) ∧ (i 0 : ℕ) < (4 * ((i 0 : ℕ) / 1024) + 3) / 4 * 1024 + 1024; omega
  | ⟨1, _⟩ =>
    show win1_4.index ⟨4 * ((i 0 : ℕ) / 1024) + 3, ht⟩ (1 : Fin 2) * 128 ≤ (i 1 : ℕ) ∧ (i 1 : ℕ) < win1_4.index ⟨4 * ((i 0 : ℕ) / 1024) + 3, ht⟩ (1 : Fin 2) * 128 + 128
    rw [e1]; omega

/-- THE RESULT ARRAY after the kernel. -/
theorem arr_v7 (c : Dev nD) : (R1.dat V c).arrAt 4 cfg1.N = G V c :=
  (R1.dat V c).arrAt_eq_of_cover 4 (G V c) (flushed_eq V c) (cover c)

end Cert.KernelIdeal.R1V

end
-- ==== Proof.KernelValue.lean ====
/-
  The idealized kernel's result array is the specification's function of the four argument arrays.

  Follow the result back through the program: the aggregation kernel leaves `d i * (∑ j, adj i j * xw j o) + b o` of the
  arrays it finds on entry; of those, the column `d` is what the row-sum kernel left, `(deg i + ε)^(-1/2)` of the
  adjacency matrix; `xw` is what the host stretch computed from it, `xw j o = ∑ c, (d j * x j c) * W o c`; the bias row
  is the bias; and the adjacency matrix reaches the second kernel as launched.
-/
import proofs.«180980_j15479062135162_2_alg».proof.Proof.RunAll
import proofs.«180980_j15479062135162_2_alg».proof.Proof.R0Value
import proofs.«180980_j15479062135162_2_alg».proof.Proof.HostValue
import proofs.«180980_j15479062135162_2_alg».proof.Proof.R1Value
import proofs.«180980_j15479062135162_2_alg».proof.Proof.Spec

set_option maxRecDepth 16384

noncomputable section

open scoped BigOperators

namespace Cert.KernelIdeal.KV

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ) (ρ : Dev nD → PrngReg)

/-- The four argument arrays as launched, as functions into the extended reals. -/
abbrev xM (c : Dev nD) : Cert.Spec.X := m ((c : Thread nD τ).loc main_arg0)
abbrev adjM (c : Dev nD) : Cert.Spec.A := m ((c : Thread nD τ).loc main_arg1)
abbrev wM (c : Dev nD) : Cert.Spec.Wt := m ((c : Thread nD τ).loc main_arg2)
abbrev bM (c : Dev nD) : Cert.Spec.Bv := m ((c : Thread nD τ).loc main_arg3)

/-- After the row-sum kernel the column of normalising factors holds `(deg i + ε)^(-1/2)`. -/
theorem B1_v0 (c : Dev nD) : (B1 m ρ c (Proc.devRef .tc main_v0) : S8192x1.Idx → EReal) = fun idx => Cert.Spec.dinv (adjM m c) (idx 0) :=
  (B1_arr m ρ c 1).trans (Cert.KernelIdeal.R0V.arr_v0 (E0 m ρ) c)

/-- The adjacency matrix reaches the host stretch as launched, -/
theorem B1_arg1 (c : Dev nD) : B1 m ρ c (Proc.devRef .tc main_arg1) = m ((c : Thread nD τ).loc main_arg1) :=
  (B1_arr m ρ c 0).trans (((R0.dat (E0 m ρ) c).arrAt_in 0 rfl _).trans (R0.A_eq (E0 m ρ) c 0))
/-- and so do the features, the weights and the bias. -/
theorem B1_arg0 (c : Dev nD) : B1 m ρ c (Proc.devRef .tc main_arg0) = m ((c : Thread nD τ).loc main_arg0) := B1_of_ne m ρ c main_arg0 (by decide)
theorem B1_arg2 (c : Dev nD) : B1 m ρ c (Proc.devRef .tc main_arg2) = m ((c : Thread nD τ).loc main_arg2) := B1_of_ne m ρ c main_arg2 (by decide)
theorem B1_arg3 (c : Dev nD) : B1 m ρ c (Proc.devRef .tc main_arg3) = m ((c : Thread nD τ).loc main_arg3) := B1_of_ne m ρ c main_arg3 (by decide)

/-- THE RESULT. -/
theorem result (c : Dev nD) :
    (B3 m ρ c (Proc.devRef .tc main_v7) : S8192x128.Idx → EReal) = Cert.Spec.G (xM m c) (adjM m c) (wM m c) (bM m c) := by
  refine (B3_arr m ρ c 4).trans ((Cert.KernelIdeal.R1V.arr_v7 (E2 m ρ) c).trans ?_)
  have hd : ∀ i : Fin 8192, Cert.KernelIdeal.R1V.dA (E2 m ρ) c (ix2 i (0 : Fin 1)) = Cert.Spec.dinv (adjM m c) i := fun i =>
    (congrFun (Cert.KernelIdeal.HostV.v0_kept (B1 m ρ c)) (ix2 i (0 : Fin 1))).trans (congrFun (B1_v0 m ρ c) (ix2 i (0 : Fin 1)))
  have ha : Cert.KernelIdeal.R1V.adjA (E2 m ρ) c = adjM m c :=
    (Cert.KernelIdeal.HostV.arg1_kept (B1 m ρ c)).trans (B1_arg1 m ρ c)
  have e1 : Cert.KernelIdeal.HostV.nW (B1 m ρ c) = fun idx => Cert.Spec.dinv (adjM m c) (idx 0) := B1_v0 m ρ c
  have e2 : Cert.KernelIdeal.HostV.xW (B1 m ρ c) = xM m c := B1_arg0 m ρ c
  have e3 : Cert.KernelIdeal.HostV.wW (B1 m ρ c) = wM m c := B1_arg2 m ρ c
  have e4 : Cert.KernelIdeal.HostV.bW (B1 m ρ c) = bM m c := B1_arg3 m ρ c
  have hxw : ∀ (j : Fin 8192) (o : Fin 128), Cert.KernelIdeal.R1V.xwA (E2 m ρ) c (ix2 j o) = Cert.Spec.xw (xM m c) (adjM m c) (wM m c) j o := fun j o => by
    refine (congrFun (Cert.KernelIdeal.HostV.v5_eq (B1 m ρ c)) (ix2 j o)).trans ?_
    show ∑ cc : Fin 128, (Cert.KernelIdeal.HostV.nW (B1 m ρ c) (ix2 j (0 : Fin 1)) * Cert.KernelIdeal.HostV.xW (B1 m ρ c) (ix2 j cc)) * Cert.KernelIdeal.HostV.wW (B1 m ρ c) (ix2 o cc) = _
    rw [e1, e2, e3]
    rfl
  have hb : ∀ o : Fin 128, Cert.KernelIdeal.R1V.bA (E2 m ρ) c (ix2 (0 : Fin 1) o) = bM m c (ix1 o) := fun o => by
    refine (congrFun (Cert.KernelIdeal.HostV.v6_eq (B1 m ρ c)) (ix2 (0 : Fin 1) o)).trans ?_
    show Cert.KernelIdeal.HostV.bW (B1 m ρ c) (ix1 o) = _
    rw [e4]
  funext idx
  obtain ⟨i, o, rfl⟩ : ∃ (i : Fin 8192) (o : Fin 128), idx = ix2 i o := ⟨idx 0, idx 1, eq_ix2 idx⟩
  show Cert.KernelIdeal.R1V.dA (E2 m ρ) c (ix2 i (0 : Fin 1)) * (∑ j : Fin 8192, Cert.KernelIdeal.R1V.adjA (E2 m ρ) c (ix2 i j) * Cert.KernelIdeal.R1V.xwA (E2 m ρ) c (ix2 j o))
      + Cert.KernelIdeal.R1V.bA (E2 m ρ) c (ix2 (0 : Fin 1) o)
    = Cert.Spec.dinv (adjM m c) i * (∑ j : Fin 8192, adjM m c (ix2 i j) * Cert.Spec.xw (xM m c) (adjM m c) (wM m c) j o) + bM m c (ix1 o)
  rw [hd i, hb o, ha]
  exact congrArg (fun s => Cert.Spec.dinv (adjM m c) i * s + bM m c (ix1 o)) (Finset.sum_congr rfl fun j _ => congrArg (adjM m c (ix2 i j) * ·) (hxw j o))

end Cert.KernelIdeal.KV

end
-- ==== Proof.RealLaw.lean ====
/-
  The two bracketings of the normalised graph convolution are one number on real data.

  Write `s i = deg i + ε` for the shifted degree of row `i` and suppose every `s i` is a positive real and every
  entry of `x`, `adj`, `W`, `b` is a real number.  Then `1 / √(s i)` and `(s i)^(-1/2)` are the same positive
  real `d i`, and

      ∑ c, (∑ j, ((d i * adj i j) * d j) * x j c) * W o c + b o  =  d i * (∑ j, adj i j * ∑ c, (d j * x j c) * W o c) + b o

  is an identity of real numbers: distribute the factor `W o c` into the inner sum, exchange the two finite sums,
  and pull the factors `d i` and `adj i j`, which do not depend on `c`, out again.  On the extended reals the
  same steps are not available (a product does not distribute over a sum with an infinite term), which is why
  the entries are first shown to be real and the identity is proved in `ℝ` and carried back along the coercion.
-/
import proofs.«180980_j15479062135162_2_alg».proof.Proof.Spec

noncomputable section

open scoped BigOperators

namespace Cert.RealLaw

open Idealize.ShloMosaic Idealize.ShloMosaic.ValueIdx

/-- every entry of an array is a real number -/
def Finite {S : Idealize.ShloMosaic.Shape} (v : S.Idx → EReal) : Prop := ∀ i, v i ≠ ⊤ ∧ v i ≠ ⊥

/-- The coercion of the reals into the extended reals commutes with finite sums. -/
@[norm_cast]
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the coercion of an array of reals. -/
theorem Finite.exists_real {S : Shape} {v : S.Idx → EReal} (h : Finite v) :
    ∃ r : S.Idx → ℝ, v = fun k => (r k : EReal) :=
  ⟨fun k => (v k).toReal, funext fun k => (EReal.coe_toReal (h k).1 (h k).2).symm⟩

/-- The regulariser is a real number: the normal binary32 value `8796093 · 2⁻⁴³` (exponent field `107`,
    significand `2²³ + 407485`). -/
theorem eps_real : ∃ e : ℝ, Cert.Spec.eps = (e : EReal) :=
  ⟨8796093 * (2 ^ 43)⁻¹, by simp [Cert.Spec.eps, Ideal.ofBits, Ideal.ieee]⟩

/-- At a positive real `s` the quotient `1 / √s` is the real `(√s)⁻¹`. -/
theorem div_one_sqrt_coe {s : ℝ} (hs : 0 < s) :
    Ideal.div 1 (Ideal.sqrt (s : EReal)) = (((Real.sqrt s)⁻¹ : ℝ) : EReal) := by
  have h0 : Real.sqrt s ≠ 0 := (Real.sqrt_pos.mpr hs).ne'
  rw [Ideal.sqrt_coe, if_neg (not_lt.mpr hs.le), Ideal.div_coe h0, one_mul, one_div]

/-- At a positive real `s` the reciprocal square root is the same real `(√s)⁻¹`. -/
theorem rsqrt_coe_pos {s : ℝ} (hs : 0 < s) :
    Ideal.rsqrt (s : EReal) = (((Real.sqrt s)⁻¹ : ℝ) : EReal) := by
  rw [Ideal.rsqrt_coe, if_neg (not_lt.mpr hs.le), if_neg hs.ne']

/-- The identity in the reals, over any two finite index types: the factor `w c` enters the inner sum, the two
    sums are exchanged, and `di` and `a j` leave the sum over `c`. -/
theorem real_law {J C : Type*} [Fintype J] [Fintype C] (di : ℝ) (d a : J → ℝ) (x : J → C → ℝ) (w : C → ℝ) (b : ℝ) :
    (∑ c : C, (∑ j : J, ((di * a j) * d j) * x j c) * w c) + b
      = di * (∑ j : J, a j * ∑ c : C, (d j * x j c) * w c) + b := by
  congr 1
  simp only [Finset.sum_mul, Finset.mul_sum]
  rw [Finset.sum_comm]
  exact Finset.sum_congr rfl fun j _ => Finset.sum_congr rfl fun c _ => by ring

/-- The reference's bracketing is the specification's, on real data with positive shifted degrees. -/
theorem ref_bracketing_eq (x : Cert.Spec.X) (adj : Cert.Spec.A) (W : Cert.Spec.Wt) (b : Cert.Spec.Bv)
    (hx : Finite x) (hadj : Finite adj) (hW : Finite W) (hb : Finite b)
    (hpos : ∀ i : Fin 8192, 0 < Cert.Spec.deg adj i + Cert.Spec.eps) (i : Fin 8192) (o : Fin 128) :
    (∑ c : Fin 128, (∑ j : Fin 8192, ((Ideal.div 1 (Ideal.sqrt (Cert.Spec.deg adj i + Cert.Spec.eps)) * adj (ix2 i j)) * Ideal.div 1 (Ideal.sqrt (Cert.Spec.deg adj j + Cert.Spec.eps))) * x (ix2 j c)) * W (ix2 o c)) + b (ix1 o)
      = Cert.Spec.out x adj W b i o := by
  obtain ⟨xr, rfl⟩ := hx.exists_real
  obtain ⟨ar, rfl⟩ := hadj.exists_real
  obtain ⟨wr, rfl⟩ := hW.exists_real
  obtain ⟨br, rfl⟩ := hb.exists_real
  obtain ⟨e, he⟩ := eps_real
  -- the shifted degree of every row is a positive real
  have hs : ∀ j : Fin 8192, Cert.Spec.deg (fun k => (ar k : EReal)) j + Cert.Spec.eps
      = (((∑ k : Fin 8192, ar (ix2 j k)) + e : ℝ) : EReal) := by
    intro j
    unfold Cert.Spec.deg
    rw [he, EReal.coe_add, coe_sum]
  have hp : ∀ j : Fin 8192, 0 < (∑ k : Fin 8192, ar (ix2 j k)) + e := by
    intro j
    have h := hpos j
    rw [hs j] at h
    exact_mod_cast h
  -- so both spellings of the normalising factor are the real `d j`
  have hd : ∀ j : Fin 8192, Ideal.div 1 (Ideal.sqrt (Cert.Spec.deg (fun k => (ar k : EReal)) j + Cert.Spec.eps))
      = (((Real.sqrt ((∑ k : Fin 8192, ar (ix2 j k)) + e))⁻¹ : ℝ) : EReal) := by
    intro j; rw [hs j]; exact div_one_sqrt_coe (hp j)
  have hr : ∀ j : Fin 8192, Cert.Spec.dinv (fun k => (ar k : EReal)) j
      = (((Real.sqrt ((∑ k : Fin 8192, ar (ix2 j k)) + e))⁻¹ : ℝ) : EReal) := by
    intro j; unfold Cert.Spec.dinv; rw [hs j]; exact rsqrt_coe_pos (hp j)
  unfold Cert.Spec.out Cert.Spec.agg Cert.Spec.xw
  simp only [hd, hr]
  exact_mod_cast real_law ((Real.sqrt ((∑ k : Fin 8192, ar (ix2 i k)) + e))⁻¹)
    (fun j => (Real.sqrt ((∑ k : Fin 8192, ar (ix2 j k)) + e))⁻¹) (fun j => ar (ix2 i j))
    (fun j c => xr (ix2 j c)) (fun c => wr (ix2 o c)) (br (ix1 o))

end Cert.RealLaw

end
-- ==== Proof.RefValue.lean ====
/-
  The reference's result, read index by index, is the specification's function.

  At row `i` and output feature `o` the reference computes

      ∑ c, (∑ j, ((n i * adj i j) * n j) * x j c) * W o c + b o,      n i = 1 / √((0 + ∑ k, adj i k) + ε),

  where the row sum starts from the zero initial value, the two broadcasts of `n` read it at the row and at the
  column of `adj`, and the transposed weights read `W` at `(o, c)`.  The row sum is the degree of the row, so this
  is the bracketing that the real law identifies with the specification's whenever every entry is real and
  every shifted degree is positive.
-/
import proofs.«180980_j15479062135162_2_alg».proof.Proof.Gen.ReferenceIdeal.Read
import proofs.«180980_j15479062135162_2_alg».proof.Proof.Spec
import proofs.«180980_j15479062135162_2_alg».proof.Proof.RealLaw

noncomputable section

open scoped BigOperators

namespace Cert.RefValue

open Idealize.ShloMosaic Idealize.ShloMosaic.ValueIdx Cert.ReferenceIdeal Cert.ReferenceIdeal.Read

/-! ### Where each stage reads its operands -/

/-- The projection's left operand at `(i, o)`, contraction coordinate `c`: the aggregated features at `(i, c)`. -/
theorem proj_lhs (i : Fin 8192) (o c : Fin 128) : lidx_main_v14 (ix2 i o) c = ix2 i c :=
  funext fun a => Fin.ext (by match a with | ⟨0, _⟩ => rfl | ⟨1, _⟩ => rfl)
/-- Its right operand is the transposed weights at `(c, o)`: the weights at `(o, c)`. -/
theorem proj_rhs (i : Fin 8192) (o c : Fin 128) : idx_main_v13 (ridx_main_v14 (ix2 i o) c) = ix2 o c :=
  funext fun a => Fin.ext (by match a with | ⟨0, _⟩ => rfl | ⟨1, _⟩ => rfl)
/-- The aggregation's left operand at `(i, c)`, contraction coordinate `j`: the normalised adjacency at `(i, j)`. -/
theorem agg_lhs (i : Fin 8192) (c : Fin 128) (j : Fin 8192) : lidx_main_v12 (ix2 i c) j = ix2 i j :=
  funext fun a => Fin.ext (by match a with | ⟨0, _⟩ => rfl | ⟨1, _⟩ => rfl)
/-- Its right operand: the features at `(j, c)`. -/
theorem agg_rhs (i : Fin 8192) (c : Fin 128) (j : Fin 8192) : ridx_main_v12 (ix2 i c) j = ix2 j c :=
  funext fun a => Fin.ext (by match a with | ⟨0, _⟩ => rfl | ⟨1, _⟩ => rfl)
/-- The factor broadcast along the columns reads, at `(i, j)`, the sum of row `i`: entries `(i, k)`. -/
theorem row_factor (i j k : Fin 8192) : idx_main_v0 (idx_main_v6 (idx_main_v7 (ix2 i j))) k = ix2 i k :=
  funext fun a => Fin.ext (by match a with | ⟨0, _⟩ => rfl | ⟨1, _⟩ => rfl)
/-- The factor broadcast along the rows reads, at `(i, j)`, the sum of row `j`: entries `(j, k)`. -/
theorem col_factor (i j k : Fin 8192) : idx_main_v0 (idx_main_v9 (idx_main_v10 (ix2 i j))) k = ix2 j k :=
  funext fun a => Fin.ext (by match a with | ⟨0, _⟩ => rfl | ⟨1, _⟩ => rfl)
/-- The broadcast bias at `(i, o)` is the bias at `o`. -/
theorem bias_at (i : Fin 8192) (o : Fin 128) : idx_main_v15 (idx_main_v16 (ix2 i o)) = ix1 o :=
  funext fun a => Fin.ext (by match a with | ⟨0, _⟩ => rfl)

/-- The binary32 pattern of `1`. -/
theorem ofBits_one_f32 : Ideal.ofBits .f32 0x3F800000#32 = 1 := by
  simp [Ideal.ofBits, Ideal.ieee, -EReal.coe_mul]; norm_num

/-! ### The reference is the specification -/

theorem ref_is_spec (x0 : (⟨Cert.ReferenceIdeal.S8192x128, .f32⟩ : BufTy).Contents (Elt Ideal)) (x1 : (⟨Cert.ReferenceIdeal.S8192x8192, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (hx : Cert.RealLaw.Finite x0) (hadj : Cert.RealLaw.Finite x1) (hW : Cert.RealLaw.Finite x2) (hb : Cert.RealLaw.Finite x3)
    (hpos : ∀ i : Fin 8192, 0 < Cert.Spec.deg x1 i + Cert.Spec.eps) :
    Cert.ReferenceIdeal.Read.val_main_v17 (F := Ideal) x0 x1 x2 x3 = Cert.Spec.G x0 x1 x2 x3 := by
  funext idx
  obtain ⟨i, o, rfl⟩ : ∃ (i : Fin 8192) (o : Fin 128), idx = ix2 i o := ⟨idx 0, idx 1, eq_ix2 idx⟩
  -- the stages, outermost first, each read at an index
  rw [val_main_v17_apply, val_main_v14_apply, val_main_v16_apply, val_main_v15_apply]
  simp only [val_main_v12_apply, val_main_v13_apply, val_main_v11_apply, val_main_v8_apply, val_main_v10_apply,
    val_main_v9_apply, val_main_v7_apply, val_main_v6_apply, val_main_v5_apply, val_main_v4_apply, val_main_v3_apply,
    val_main_v2_apply, val_main_v0_apply, val_main_v1_apply, val_main_cst_apply, val_main_cst_0_apply, val_main_cst_1_apply]
  -- the operands' indices by coordinates
  simp only [proj_lhs, proj_rhs, agg_lhs, agg_rhs, row_factor, col_factor, bias_at]
  -- the operations on the extended reals; the zero initial value and the numerator `1`
  simp only [Ideal.hostDivf_def, Ideal.hostUnary_sqrt_def, Ideal.addf_def, Ideal.mulf_def, Ideal.ofBits_def,
    Ideal.ofBits_zero_f32, ofBits_one_f32, zero_add]
  -- what is left is the reference's bracketing with the degree and the regulariser written out
  have h := Cert.RealLaw.ref_bracketing_eq x0 x1 x2 x3 hx hadj hW hb hpos i o
  unfold Cert.Spec.deg Cert.Spec.eps at h
  exact h

end Cert.RefValue

end
-- ==== Proof.PreFacts.lean ====
/-
  The precondition, decoded.

  The precondition is the conjunction of five tests: for each of the four arrays `x`, `adj`, `W`, `b` that every
  entry `v` satisfies `|v| < +∞`, and that every row of `adj` satisfies `(0 + ∑ j, adj i j) + ε > 0`.  On the extended
  reals `|v| = max v (-v)` is `+∞` exactly at the two infinities, so the first four say that every entry is a real
  number; the row sum from the zero initial value is the degree `deg i`, so the fifth says that every shifted
  degree `deg i + ε` is positive.  A conjunction of tests over a whole array is `1` only if every test is.
-/
import proofs.«180980_j15479062135162_2_alg».proof.Proof.Gen.Pre_finite_inputs
import proofs.«180980_j15479062135162_2_alg».proof.Proof.Spec
import proofs.«180980_j15479062135162_2_alg».proof.Proof.RealLaw
import Idealize.ShloMosaic.Lib.ReduceAll
import Idealize.ShloMosaic.PureOps.Ideal.Laws

noncomputable section

open scoped BigOperators

namespace Cert.PreFacts

open Idealize.ShloMosaic Idealize.ShloMosaic.ValueIdx Cert.Pre_finite_inputs

/-- The scalar shape has one index. -/
instance : Subsingleton S_.Idx := ⟨fun a b => funext fun d => d.elim0⟩

/-- A one-bit word made from a Boolean is `1` exactly when the Boolean is true. -/
theorem ofBool_eq_one (b : Bool) : BitVec.ofBool b = 1#1 ↔ b = true := by cases b <;> decide

/-- A conjunction of two one-bit arrays is `1` at an index only if both are. -/
theorem and_split {s : Shape} (a b : IVec s 1) (i : s.Idx) (h : andi a b i = 1#1) : a i = 1#1 ∧ b i = 1#1 :=
  IntOp.andi_eq_one.1 h

/-- The binary32 pattern of `+∞`. -/
theorem ofBits_inf : Ideal.ofBits .f32 0x7F800000#32 = ⊤ := by simp [Ideal.ofBits, Ideal.ieee]

/-- `|v| < +∞` says that `v` is a real number: at either infinity `max v (-v)` is `+∞`. -/
theorem real_of_abs_lt (v : EReal) (h : Ideal.cmp .olt (max v (-v)) (Ideal.ofBits .f32 0x7F800000#32) = 1#1) :
    v ≠ ⊤ ∧ v ≠ ⊥ := by
  rw [ofBits_inf] at h
  have h' : max v (-v) < ⊤ := of_decide_eq_true ((ofBool_eq_one _).1 h)
  induction v using EReal.rec with
  | bot => simp at h'
  | top => simp at h'
  | coe r => exact ⟨EReal.coe_ne_top r, EReal.coe_ne_bot r⟩

/-- The test `|x| < +∞` at every index says that every entry of `x` is real. -/
theorem finite_of_all {S : Shape} (bc : S_.BroadcastsInDim S (![] : Fin 0 → Fin S.rank)) (x : FVec Ideal S .f32)
    (h : ∀ i, cmpf .olt (Host.absf x) (broadcastInDim S ![] bc (constant (F := Ideal) S_ .f32 0x7F800000#32)) i = 1#1) :
    Cert.RealLaw.Finite x := fun i => real_of_abs_lt (x i) (h i)

/-- The test `a > 0` against the zero pattern says `0 < a`. -/
theorem pos_of_ogt_zero (a : EReal) (h : Ideal.cmp .ogt a (Ideal.ofBits .f32 0x00000000#32) = 1#1) : 0 < a := by
  rw [Ideal.ofBits_zero_f32] at h
  exact of_decide_eq_true ((ofBool_eq_one _).1 h)

/-- The sum of row `r` of `adj` from the zero initial value is the degree of `r`. -/
theorem reduceAdd_row (rt : S8192x8192.ReducesTo [1] S8192) (hS : 0 < S_.numel) (x1 : FVec Ideal S8192x8192 .f32)
    (r : Fin 8192) :
    Host.reduceAdd (F := Ideal) x1 (constant (F := Ideal) S_ .f32 0x00000000#32) rt hS (ix1 r) = Cert.Spec.deg x1 r := by
  simp only [Host.reduceAdd, Ideal.hostReduceAdd_def]
  rw [Ideal.hostReduceAdd_single rt (by decide)]
  show Ideal.ofBits .f32 0x00000000#32 + _ = _
  rw [Ideal.ofBits_zero_f32, zero_add]
  unfold Cert.Spec.deg
  refine Finset.sum_congr rfl fun k _ => ?_
  exact congrArg x1 (funext fun a => Fin.ext (by match a with | ⟨0, _⟩ => rfl | ⟨1, _⟩ => rfl))

/-- Under the precondition every entry of the four arrays is real and every shifted degree is positive. -/
theorem of_pre (x0 : FVec Ideal Cert.Pre_finite_inputs.S8192x128 .f32) (x1 : FVec Ideal Cert.Pre_finite_inputs.S8192x8192 .f32) (x2 : FVec Ideal Cert.Pre_finite_inputs.S128x128 .f32) (x3 : FVec Ideal Cert.Pre_finite_inputs.S128 .f32)
    (h : Cert.Pre_finite_inputs.fn (F := Ideal) x0 x1 x2 x3 = (fun _ => 1#1)) :
    Cert.RealLaw.Finite x0 ∧ Cert.RealLaw.Finite x1 ∧ Cert.RealLaw.Finite x2 ∧ Cert.RealLaw.Finite x3 ∧ ∀ i : Fin 8192, 0 < Cert.Spec.deg x1 i + Cert.Spec.eps := by
  have e := congrFun h ix0
  dsimp only [Cert.Pre_finite_inputs.fn, Cert.Pre_finite_inputs.fn_part1] at e
  obtain ⟨h0123, h4⟩ := and_split _ _ _ e
  obtain ⟨h012, h3⟩ := and_split _ _ _ h0123
  obtain ⟨h01, h2⟩ := and_split _ _ _ h012
  obtain ⟨h0, h1⟩ := and_split _ _ _ h01
  refine ⟨finite_of_all _ x0 (Host.reduce_andi_all _ _ _ _ _ h0), finite_of_all _ x1 (Host.reduce_andi_all _ _ _ _ _ h1),
    finite_of_all _ x2 (Host.reduce_andi_all _ _ _ _ _ h2), finite_of_all _ x3 (Host.reduce_andi_all _ _ _ _ _ h3), fun r => ?_⟩
  have hr := pos_of_ogt_zero _ (Host.reduce_andi_all _ _ _ _ _ h4 (ix1 r))
  rw [← reduceAdd_row _ _ x1 r]
  exact hr

end Cert.PreFacts

end
-- ==== Proof.lean ====
/-
  The certificate's five claims for the normalised graph convolution with a linear layer.

  Both programs compute, for features `x`, a square matrix `adj`, weights `W` and a bias `b`,

      out i o = ∑ c, (∑ j, (d i * adj i j * d j) * x j c) * W o c + b o,      d i = (∑ j, adj i j + ε)^(-1/2).

  The reference writes `d` as `1 / sqrt (·)` and computes the sums in that order.  The kernel computes the row sums in
  one pass over `adj` (a [1024, 1] accumulator over four column blocks, then `rsqrt`), scales and projects the features
  on the host, `xw = (d * x) Wᵀ`, and in a second pass accumulates `adj xw` block by block and finishes with
  `d i * acc + b`.  On the extended reals the two agree when every entry is a real number and every `deg i + ε` is
  positive — the precondition — because then every `d i` is a positive real and the two bracketings differ only by
  distributing real factors over finite sums; without positivity `1 / sqrt s` and `rsqrt s` already differ at `s < 0`.

  The frames: each program is the row-sum kernel, a host stretch, the aggregation kernel; each kernel's body is run
  once per case of its two branch conditions, and the invariant carried from grid point to grid point names the
  accumulator's contents.  The reference's frame is its run with the result dropped.  The kernel's idealization
  rewrote nothing.
-/
import proofs.«180980_j15479062135162_2_alg».proof.Defs
import proofs.«180980_j15479062135162_2_alg».proof.Proof.Gen.Kernel
import proofs.«180980_j15479062135162_2_alg».proof.Proof.Gen.KernelIdeal
import proofs.«180980_j15479062135162_2_alg».proof.Proof.Gen.ReferenceIdeal
import proofs.«180980_j15479062135162_2_alg».proof.Proof.Gen.ReferenceIdeal.Run
import proofs.«180980_j15479062135162_2_alg».proof.Proof.Gen.ReferenceIdeal.Read
import proofs.«180980_j15479062135162_2_alg».proof.Proof.Gen.Pre_finite_inputs
import proofs.«180980_j15479062135162_2_alg».proof.Proof.RunAll
import proofs.«180980_j15479062135162_2_alg».proof.Proof.KRunAll
import proofs.«180980_j15479062135162_2_alg».proof.Proof.KernelValue
import proofs.«180980_j15479062135162_2_alg».proof.Proof.RefValue
import proofs.«180980_j15479062135162_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's function of the arguments: the kernel's result array by
    reading its run back (no hypothesis needed: the specification is written in the kernel's bracketing), the reference's
    by the law that joins the two bracketings under the precondition. -/
theorem algebraic : Cert.algebraic_KernelIdeal_ReferenceIdeal := by
  intro m ρ m' ρ' hpre hagree
  refine ⟨fun c => Cert.Spec.G (Cert.KernelIdeal.KV.xM m c) (Cert.KernelIdeal.KV.adjM m c) (Cert.KernelIdeal.KV.wM m c) (Cert.KernelIdeal.KV.bM m c), ?_, ?_⟩
  · refine (θ_run Cert.KernelIdeal.defs _ _).mono (fun _ h c => ?_) (Cert.KernelIdeal.Run.run_all (F := Ideal) m ρ)
    exact ⟨(h c _ (Cert.KernelIdeal.Run.mem_uc Cert.KernelIdeal.main_v7 (by decide))).trans (Cert.KernelIdeal.KV.result m ρ c),
      (h c _ (Cert.KernelIdeal.Run.mem_uc Cert.KernelIdeal.main_arg0 (by decide))).trans (Cert.KernelIdeal.Run.B3_main_arg0 m ρ c),
      (h c _ (Cert.KernelIdeal.Run.mem_uc Cert.KernelIdeal.main_arg1 (by decide))).trans (Cert.KernelIdeal.Run.B3_main_arg1 m ρ c),
      (h c _ (Cert.KernelIdeal.Run.mem_uc Cert.KernelIdeal.main_arg2 (by decide))).trans (Cert.KernelIdeal.Run.B3_main_arg2 m ρ c),
      (h c _ (Cert.KernelIdeal.Run.mem_uc Cert.KernelIdeal.main_arg3 (by decide))).trans (Cert.KernelIdeal.Run.B3_main_arg3 m ρ c)⟩
  · refine (θ_run Cert.ReferenceIdeal.defs _ _).mono (fun _ h c => ⟨(h c).1.trans ?_, (h c).2⟩)
      (Cert.ReferenceIdeal.Value.run (F := Ideal) m' ρ')
    obtain ⟨hx, hadj, hW, hb, hpos⟩ := Cert.PreFacts.of_pre _ _ _ _ (hpre c)
    rw [Cert.ReferenceIdeal.Read.val_main_v17_eq, (hagree c).1, (hagree c).2.1, (hagree c).2.2.1, (hagree c).2.2.2]
    exact Cert.RefValue.ref_is_spec _ _ _ _ hx hadj hW hb hpos

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
